-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S16384x256 : Shape := ⟨2, ![16384, 256]⟩
abbrev S16384x4096 : Shape := ⟨2, ![16384, 4096]⟩
abbrev S256x64 : Shape := ⟨2, ![256, 64]⟩
abbrev S64 : Shape := ⟨1, ![64]⟩
abbrev S320x256 : Shape := ⟨2, ![320, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S64 .f32) (main_arg5 : FVec F S320x256 .f32) (main_arg6 : FVec F S256 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S320x256 .f32 := Host.absf main_arg5
  let main_cst_8 : FVec F S_ .f32 := constant S_ .f32 0x7F800000#32
  let main_v25 : FVec F S320x256 .f32 := broadcastInDim S320x256 ![] bcast_S_S320x256 main_cst_8
  let main_v26 : IVec S320x256 1 := cmpf .olt main_v24 main_v25
  let main_c_9 : IVec S_ 1 := constantI S_ 1 1#1
  let main_v27 : IVec S_ 1 := (fun x v => Host.reduce IntOp.andi x v reducesTo_S320x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4096x256 .f32) (main_arg1 : FVec F S16384x256 .f32) (main_arg2 : FVec F S16384x4096 .f32) (main_arg3 : FVec F S256x64 .f32) (main_arg4 : FVec F S64 .f32) (main_arg5 : FVec F S320x256 .f32) (main_arg6 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S4096x256 : Shape := ⟨2, ![4096, 256]⟩
abbrev S16384x256 : Shape := ⟨2, ![16384, 256]⟩
abbrev S16384x4096 : Shape := ⟨2, ![16384, 4096]⟩
abbrev S256x64 : Shape := ⟨2, ![256, 64]⟩
abbrev S64 : Shape := ⟨1, ![64]⟩
abbrev S320x256 : Shape := ⟨2, ![320, 256]⟩
abbrev S256 : Shape := ⟨1, ![256]⟩
abbrev S64x256 : Shape := ⟨2, ![64, 256]⟩
abbrev S256x256 : Shape := ⟨2, ![256, 256]⟩
abbrev S1x64 : Shape := ⟨2, ![1, 64]⟩
abbrev S1x256 : Shape := ⟨2, ![1, 256]⟩
abbrev S2048x512 : Shape := ⟨2, ![2048, 512]⟩
abbrev S2048x256 : Shape := ⟨2, ![2048, 256]⟩
abbrev S4096x64 : Shape := ⟨2, ![4096, 64]⟩
abbrev S2048x64 : Shape := ⟨2, ![2048, 64]⟩
abbrev S512x64 : Shape := ⟨2, ![512, 64]⟩

abbrev nBuf : Space → Nat
  | .hbm => 12
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S16384x4096, .f32⟩
  | .hbm, ⟨3, _⟩ => ⟨S256x64, .f32⟩
  | .hbm, ⟨4, _⟩ => ⟨S64, .f32⟩
  | .hbm, ⟨5, _⟩ => ⟨S320x256, .f32⟩
  | .hbm, ⟨6, _⟩ => ⟨S256, .f32⟩
  | .hbm, ⟨7, _⟩ => ⟨S64x256, .f32⟩
  | .hbm, ⟨8, _⟩ => ⟨S256x256, .f32⟩
  | .hbm, ⟨9, _⟩ => ⟨S1x64, .f32⟩
  | .hbm, ⟨10, _⟩ => ⟨S1x256, .f32⟩
  | .hbm, ⟨11, _⟩ => ⟨S16384x256, .f32⟩
  | .local _ .vmem, ⟨0, _⟩ => ⟨S4096x256, .f32⟩
  | .local _ .vmem, ⟨1, _⟩ => ⟨S256x64, .f32⟩
  | .local _ .vmem, ⟨2, _⟩ => ⟨S1x64, .f32⟩
  | .local _ .vmem, ⟨3, _⟩ => ⟨S2048x512, .f32⟩
  | .local _ .vmem, ⟨4, _⟩ => ⟨S2048x512, .f32⟩
  | .local _ .vmem, ⟨5, _⟩ => ⟨S2048x256, .f32⟩
  | .local _ .vmem, ⟨6, _⟩ => ⟨S2048x256, .f32⟩
  | .local _ .vmem, ⟨7, _⟩ => ⟨S64x256, .f32⟩
  | .local _ .vmem, ⟨8, _⟩ => ⟨S256x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S4096x64, .f32⟩
  | .local _ .vmem, ⟨13, _⟩ => ⟨S2048x64, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let c512_i32 : BitVec 32 := 512#32
  let v6 : BitVec 32 := Scalar.muli arg1 c512_i32
  let v7 : Index := Scalar.indexCast v6
  let c0_3 : Index := 0#32
  ![v7.toNat, 0]
def k0_cond4 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S320x256_S64x256_0_0 : S320x256.Slices ![0, 0] S64x256
  slices_S320x256_S256x256_64_0 : S320x256.Slices ![64, 0] S256x256
  shapeCasts_S64_S1x64 : S64.ShapeCasts S1x64
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S2048x512_S2048x512_0_0 : ∀ a, (![0, 0] : Fin 2 → Nat) a + S2048x512.size a ≤ S2048x512.size a
  h_S2048x512 : 0 < S2048x512.numel
  h_S512x64 : 0 < S512x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S4096x256_S256x64_S4096x64_1_0_0_1_n_n_wf : DotDims.WF S4096x256 S256x64 S4096x64 [1] [0] [0] [1] [] []
  dot_S2048x512_S512x64_S2048x64_1_0_0_1_n_n_wf : DotDims.WF S2048x512 S512x64 S2048x64 [1] [0] [0] [1] [] []
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []
  hrank0 : 0 < grid0.rank
  k0_off1_inb : ∀ i : grid0.Coords, ∀ a, (k0_off1 i) a + S512x64.size a ≤ S4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x4096.size a
  hwx0_3 : ∀ i : grid0.Coords, EltTy.bits .f32 = 32 ∨ (Rect.block (s := S16384x4096) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S16384x256.size a
  hwx0_4 : ∀ i : grid0.Coords, EltTy.bits .f32 = 32 ∨ (Rect.block (s := S16384x256) S2048x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S16384x256.size a
  hwx0_8 : ∀ i : grid0.Coords, EltTy.bits .f32 = 32 ∨ (Rect.block (s := S16384x256) S2048x256.size (cc0_transform_8 i) (hinb0_8 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | ⟨_ + 9, h⟩ => absurd h (Nat.not_lt.2 (Nat.le_add_left _ _))

class Facts : Prop extends Facts₀ where

variable [Facts]
-- ==== ReferenceIdeal.lean ====
abbrev S4096x256 : Shape := ⟨2, ![4096, 256]⟩
abbrev S16384x256 : Shape := ⟨2, ![16384, 256]⟩
abbrev S16384x4096 : Shape := ⟨2, ![16384, 4096]⟩
abbrev S256x64 : Shape := ⟨2, ![256, 64]⟩
abbrev S64 : Shape := ⟨1, ![64]⟩
abbrev S320x256 : Shape := ⟨2, ![320, 256]⟩
abbrev S256 : Shape := ⟨1, ![256]⟩
abbrev S4096x64 : Shape := ⟨2, ![4096, 64]⟩
abbrev S1x64 : Shape := ⟨2, ![1, 64]⟩
abbrev S16384x64 : Shape := ⟨2, ![16384, 64]⟩
abbrev S16384x320 : Shape := ⟨2, ![16384, 320]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S16384x4096, .f32⟩
  | .hbm, ⟨3, _⟩ => ⟨S256x64, .f32⟩
  | .hbm, ⟨4, _⟩ => ⟨S64, .f32⟩
  | .hbm, ⟨5, _⟩ => ⟨S320x256, .f32⟩
  | .hbm, ⟨6, _⟩ => ⟨S256, .f32⟩
  | .hbm, ⟨7, _⟩ => ⟨S4096x64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S16384x64, .f32⟩
  | .hbm, ⟨12, _⟩ => ⟨S16384x320, .f32⟩
  | .hbm, ⟨13, _⟩ => ⟨S16384x256, .f32⟩
  | .hbm, ⟨14, _⟩ => ⟨S1x256, .f32⟩
  | .hbm, ⟨15, _⟩ => ⟨S16384x256, .f32⟩
  | .hbm, ⟨16, _⟩ => ⟨S16384x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S16384x64_S16384x256_S16384x320_d1 : Shape.Concatenates [S16384x64, S16384x256] S16384x320 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S4096x256_S256x64_S4096x64_1_0_0_1_n_n_wf : DotDims.WF S4096x256 S256x64 S4096x64 [1] [0] [0] [1] [] []
  dot_S16384x4096_S4096x64_S16384x64_1_0_0_1_n_n_wf : DotDims.WF S16384x4096 S4096x64 S16384x64 [1] [0] [0] [1] [] []
  dot_S16384x320_S320x256_S16384x256_1_0_0_1_n_n_wf : DotDims.WF S16384x320 S320x256 S16384x256 [1] [0] [0] [1] [] []

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def dot_S16384x320_S320x256_S16384x256_1_0_0_1_n_n : DotDims S16384x320 S320x256 S16384x256 where
  lhsContracting := [1]
  rhsContracting := [0]
  lhsNonContracting := [0]
  rhsNonContracting := [1]
  lhsBatch := []
  rhsBatch := []
  wf := dot_S16384x320_S320x256_S16384x256_1_0_0_1_n_n_wf

class Facts : Prop extends Facts₀ where

variable [Facts]
-- ==== Proof.KernelSteps.lean ====
/-
  The kernel body, run case by case.

  The grid is 8 row tiles by 8 contraction chunks; the point t = 8 i + k has row tile i and chunk k. The body
  keeps two scratch blocks between points: xs (4096 x 64), the projected coarse features
  x_coarse . W_sym + b_sym, and acc (2048 x 64), the running product of the row tile's interpolation block with xs.
  Four conditionals on (i, k) guard its stores: at (0, 0) it fills xs; at k = 0 it overwrites acc with this chunk's
  partial product interp[i, k] . xs[512 k .. 512 k + 511]; at k > 0 it adds the partial product to acc; at k = 7
  it stores acc . W_fuse[0..63] + x_fine[i] . W_fuse[64..319] + b_fuse into the output block. Only four
  assignments of the four conditions occur on the grid: t = 0; k = 0 with i > 0; 0 < k < 7; k = 7. For each
  of them this module proves one triple: from the buffers that case touches, at named contents, the body
  runs to the same buffers holding what the case stores, stated through the skeleton's payload functions.
  Everything is stated at any float instance F.
-/
import proofs.«163065_g84232898609311_cont_9to1c4b_835_18_alg».proof.Proof.Gen.Kernel.Frame
import proofs.«163065_g84232898609311_cont_9to1c4b_835_18_alg».proof.Proof.Gen.Kernel.Skeleton
import Idealize.ShloMosaic.Lib.Pipeline.Value

set_option maxRecDepth 16384

noncomputable section

namespace Cert.Kernel.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The four conditions -/

/-- The first branch's condition: both grid coordinates are zero. -/
abbrev cond1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
/-- The second branch's condition: the contraction coordinate is zero. -/
abbrev cond2 (i : grid0.Coords) : Prop := Scalar.cmpi .ne (Scalar.extui (Scalar.cmpi .eq (BitVec.ofNat 32 (i 1).val) 0#32)) 0#32 = 1#1
/-- The third branch's condition: the contraction coordinate is positive. -/
abbrev cond3 (i : grid0.Coords) : Prop := Scalar.cmpi .ne (Scalar.extui (Scalar.cmpi .sgt (BitVec.ofNat 32 (i 1).val) 0#32)) 0#32 = 1#1
/-- The fourth branch's condition: the contraction coordinate is the last one. -/
abbrev cond4 (i : grid0.Coords) : Prop := k0_cond4 i = 1#1

/-- Both coordinates vanish at the first point only. -/
theorem hcond1 : ∀ t : Fin cfg0.N, cond1 (grid0.coords t) ↔ t.val = 0 :=
  (by decide +kernel : ∀ t : Fin grid0.N, cond1 (grid0.coords t) ↔ t.val = 0)
/-- The chunk coordinate vanishes at the points 8 i. -/
theorem hcond2 : ∀ t : Fin cfg0.N, cond2 (grid0.coords t) ↔ t.val % 8 = 0 :=
  (by decide +kernel : ∀ t : Fin grid0.N, cond2 (grid0.coords t) ↔ t.val % 8 = 0)
/-- The chunk coordinate is positive at every other point. -/
theorem hcond3 : ∀ t : Fin cfg0.N, cond3 (grid0.coords t) ↔ t.val % 8 ≠ 0 :=
  (by decide +kernel : ∀ t : Fin grid0.N, cond3 (grid0.coords t) ↔ t.val % 8 ≠ 0)
/-- The chunk coordinate is the last one at the points 8 i + 7. -/
theorem hcond4 : ∀ t : Fin cfg0.N, cond4 (grid0.coords t) ↔ t.val % 8 = 7 :=
  (by decide +kernel : ∀ t : Fin grid0.N, cond4 (grid0.coords t) ↔ t.val % 8 = 7)

/-! ## Whole-block loads and stores -/

/-- The zero offsets of a rank-two block, as the printed rectangles spell them. -/
theorem zero2 : (![0, 0] : Fin 2 → ℕ) = fun _ => 0 := by
  funext a; fin_cases a <;> rfl

/-- One store of a whole block leaves its payload in the buffer, whatever the buffer held before. -/
theorem read_store_whole {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- Rows 512 k .. 512 k + 511 of the projected coarse features: the chunk that contraction step k multiplies. -/
def xsSlice (xs : Vec F S4096x64 .f32) (i : grid0.Coords) : Vec F S512x64 .f32 :=
  View.ld xs (Rect.unit (s := S4096x64) (k0_off1 i) S512x64.size (k0_off1_inb i))

/-! ## The first point: xs is filled, acc is started -/

set_option maxHeartbeats 1000000 in
theorem run_first (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : cond1 i) (hc2 : cond2 i) (hc3 : ¬cond3 i) (hc4 : ¬cond4 i)
    (x0 : Vec F S4096x256 .f32) (x1 : Vec F S256x64 .f32) (x2 : Vec F S1x64 .f32) (x3 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg11 fullShare (k0_pay1 x0 x1 x2)
            ∗ owns (c : Thread nD τ) arg12 fullShare (k0_pay3 x3 (xsSlice (k0_pay1 x0 x1 x2) i))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f2, %hf2, H2⟩, ⟨%f3, %hf3, H3⟩, ⟨%f4, %hf4, H4⟩, ⟨%f5, %hf5, H5⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5
  sl_exec (disch := first | exact hc1 | exact hc2 | exact hc3 | exact hc4)
  sl_step
  have e11 : arg11.view.read (Elt F) (arg11.view.writes (Elt F) arg11.view.junk
      [(⟨Rect.unit ![0, 0] S4096x64.size inb_S4096x64_S4096x64_0_0, k0_pay1
        (View.readAt (Elt F) arg2.view (Rect.unit ![0, 0] S4096x256.size inb_S4096x256_S4096x256_0_0).toLoadRect (harg2.unread x0))
        (View.readAt (Elt F) arg3.view (Rect.unit ![0, 0] S256x64.size inb_S256x64_S256x64_0_0).toLoadRect (harg3.unread x1))
        (View.readAt (Elt F) arg4.view (Rect.unit ![0, 0] S1x64.size inb_S1x64_S1x64_0_0).toLoadRect (harg4.unread x2))⟩ : View.Piece (Elt F) S4096x64 .f32)])
      = k0_pay1 x0 x1 x2 := by
    rw [read_store_whole _ _ zero2]
    simp only [View.readAt_eq_ld, harg2.read_unread, harg3.read_unread, harg4.read_unread,
      View.ld_unit_zero (S := S4096x256) zero2, View.ld_unit_zero (S := S256x64) zero2, View.ld_unit_zero (S := S1x64) zero2]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H11]
  · iexists _; isplitr
    swap; · iexact H11
    ipureintro; sl_unfold_words; exact e11
  iexists _; isplitr
  swap; · iexact H12
  ipureintro; sl_unfold_words
  rw [read_store_whole _ _ zero2]
  simp only [View.readAt_eq_ld, harg5.read_unread, View.ld_unit_zero (S := S2048x512) zero2]
  unfold xsSlice
  rw [← e11]
  rfl

/-! ## A later row tile's first chunk: acc is started over -/

set_option maxHeartbeats 1000000 in
theorem run_start (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : ¬cond1 i) (hc2 : cond2 i) (hc3 : ¬cond3 i) (hc4 : ¬cond4 i)
    (x3 : Vec F S2048x512 .f32) (xs : Vec F S4096x64 .f32) (E : Set ℕ) (K : PUnit → sProp 𝕄) :
    iprop(owns (c : Thread nD τ) arg5 fullShare x3 ∗ owns (c : Thread nD τ) arg11 fullShare xs ∗ (∃ d, owns (c : Thread nD τ) arg12 fullShare d)
        ∗ (iprop(owns (c : Thread nD τ) arg5 fullShare x3 ∗ owns (c : Thread nD τ) arg11 fullShare xs
            ∗ owns (c : Thread nD τ) arg12 fullShare (k0_pay3 x3 (xsSlice xs i))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f5, %hf5, H5⟩, ⟨%f11, %hf11, H11⟩, ⟨%d12, %f12, -, H12⟩, Hk⟩
  obtain rfl := harg5.eq_unread hf5; obtain rfl := harg11.eq_unread hf11
  sl_exec (disch := first | exact hc1 | exact hc2 | exact hc3 | exact hc4)
  sl_step
  iapply Hk
  isplitl [H5]
  · iexists _; isplitr; · ipureintro; exact harg5.read_unread _
    iexact H5
  isplitl [H11]
  · iexists _; isplitr; · ipureintro; exact harg11.read_unread _
    iexact H11
  iexists _; isplitr
  swap; · iexact H12
  ipureintro; sl_unfold_words
  rw [read_store_whole _ _ zero2]
  simp only [View.readAt_eq_ld, harg5.read_unread, harg11.read_unread, View.ld_unit_zero (S := S2048x512) zero2]
  rfl

/-! ## A middle chunk: the partial product is added to acc -/

set_option maxHeartbeats 1000000 in
theorem run_add (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : ¬cond1 i) (hc2 : ¬cond2 i) (hc3 : cond3 i) (hc4 : ¬cond4 i)
    (x3 : Vec F S2048x512 .f32) (xs : Vec F S4096x64 .f32) (acc : Vec F S2048x64 .f32) (E : Set ℕ) (K : PUnit → sProp 𝕄) :
    iprop(owns (c : Thread nD τ) arg5 fullShare x3 ∗ owns (c : Thread nD τ) arg11 fullShare xs ∗ owns (c : Thread nD τ) arg12 fullShare acc
        ∗ (iprop(owns (c : Thread nD τ) arg5 fullShare x3 ∗ owns (c : Thread nD τ) arg11 fullShare xs
            ∗ owns (c : Thread nD τ) arg12 fullShare (k0_pay4 x3 (xsSlice xs i) acc)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f5, %hf5, H5⟩, ⟨%f11, %hf11, H11⟩, ⟨%f12, %hf12, H12⟩, Hk⟩
  obtain rfl := harg5.eq_unread hf5; obtain rfl := harg11.eq_unread hf11; obtain rfl := harg12.eq_unread hf12
  sl_exec (disch := first | exact hc1 | exact hc2 | exact hc3 | exact hc4)
  sl_step
  iapply Hk
  isplitl [H5]
  · iexists _; isplitr; · ipureintro; exact harg5.read_unread _
    iexact H5
  isplitl [H11]
  · iexists _; isplitr; · ipureintro; exact harg11.read_unread _
    iexact H11
  iexists _; isplitr
  swap; · iexact H12
  ipureintro; sl_unfold_words
  rw [read_store_whole _ _ zero2]
  simp only [View.readAt_eq_ld, harg5.read_unread, harg11.read_unread, harg12.read_unread,
    View.ld_unit_zero (S := S2048x512) zero2, View.ld_unit_zero (S := S2048x64) zero2]
  rfl

/-! ## The last chunk: the partial product is added and the output block is stored -/

set_option maxHeartbeats 1000000 in
theorem run_last (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : ¬cond1 i) (hc2 : ¬cond2 i) (hc3 : cond3 i) (hc4 : cond4 i)
    (x3 : Vec F S2048x512 .f32) (x4 : Vec F S2048x256 .f32) (x5 : Vec F S64x256 .f32) (x6 : Vec F S256x256 .f32) (x7 : Vec F S1x256 .f32)
    (xs : Vec F S4096x64 .f32) (acc : Vec F S2048x64 .f32) (E : Set ℕ) (K : PUnit → sProp 𝕄) :
    iprop(owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ owns (c : Thread nD τ) arg11 fullShare xs ∗ owns (c : Thread nD τ) arg12 fullShare acc
        ∗ (iprop(owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (k0_pay5 (k0_pay4 x3 (xsSlice xs i) acc) x5 x4 x6 x7)
            ∗ owns (c : Thread nD τ) arg11 fullShare xs ∗ owns (c : Thread nD τ) arg12 fullShare (k0_pay4 x3 (xsSlice xs i) acc)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg5.eq_unread hf5; obtain rfl := harg6.eq_unread hf6; obtain rfl := harg7.eq_unread hf7; obtain rfl := harg8.eq_unread hf8
  obtain rfl := harg9.eq_unread hf9; obtain rfl := harg11.eq_unread hf11; obtain rfl := harg12.eq_unread hf12
  sl_exec (disch := first | exact hc1 | exact hc2 | exact hc3 | exact hc4)
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro; sl_unfold_words
    rw [read_store_whole _ _ zero2, View.readCov_unit_zero _ zero2]
    simp only [View.readAt_eq_ld, harg5.read_unread, harg11.read_unread, harg12.read_unread,
      harg6.read_unread, harg7.read_unread, harg8.read_unread, harg9.read_unread,
      View.ld_unit_zero (S := S2048x512) zero2, View.ld_unit_zero (S := S2048x64) zero2,
      View.ld_unit_zero (S := S2048x256) zero2, View.ld_unit_zero (S := S64x256) zero2,
      View.ld_unit_zero (S := S256x256) zero2, View.ld_unit_zero (S := S1x256) zero2]
    rfl
  isplitl [H11]
  · iexists _; isplitr; · ipureintro; exact harg11.read_unread _
    iexact H11
  iexists _; isplitr
  swap; · iexact H12
  ipureintro; sl_unfold_words
  rw [read_store_whole _ _ zero2]
  simp only [View.readAt_eq_ld, harg5.read_unread, harg11.read_unread, harg12.read_unread,
    View.ld_unit_zero (S := S2048x512) zero2, View.ld_unit_zero (S := S2048x64) zero2]
  rfl

end Cert.Kernel.Steps
end
-- ==== Proof.KernelCarried.lean ====
/-
  The proof data of the kernel's one pipeline, and the run of its frame.

  What the two scratch blocks hold is carried from point to point by the invariant: before the first point they
  hold anything; after it, xs holds the projection of the coarse features for good (nothing stores into it
  again), and acc holds, after point t = 8 i + k, the sum over the chunks 0 .. k of row tile i's interpolation
  block times the matching 512 rows of xs, built by the recursion acc(8 i) = part(8 i),
  acc(t) = acc(t - 1) + part(t). The input windows are left as found; the output window is stored only at the
  points 8 i + 7, where the pipeline writes it back, and is idle elsewhere. The body obligation is the four
  triples of the case analysis, chosen by t = 0, t mod 8 = 0, 0 < t mod 8 < 7, t mod 8 = 7.
-/
import proofs.«163065_g84232898609311_cont_9to1c4b_835_18_alg».proof.Proof.KernelSteps
import Idealize.ShloMosaic.Lib.Pipeline.Value

set_option maxRecDepth 16384

noncomputable section

namespace Cert.Kernel.Carried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.Steps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x256 .f32 := win0_8.stage (cfg0.slots t 8)
abbrev hs8 (t : Fin cfg0.N) : (ms8 t).IsWhole := hstage0_8 ((cfg0.slots t 8).cast nbuf0_8)
/-- The scratch block of the projected coarse features, and the accumulator's. -/
abbrev scXs : Memref sig .tc .vmem S4096x64 .f32 := Memref.whole cc0_scratch0
abbrev scAcc : Memref sig .tc .vmem S2048x64 .f32 := Memref.whole cc0_scratch1

/-- The region's invariant as the launch hands it over: both scratch blocks at anything, the generator register
    at some state. -/
theorem PhiA_eq (c : Dev nD) :
    (Pipeline.ΦA spec0 c : sProp 𝕄)
      = iprop(iprop((∃ d, owns (c : Thread nD τ) scXs fullShare d) ∗ (∃ d, owns (c : Thread nD τ) scAcc fullShare d)) ∗ (∃ r, prngReg c r)) := by
  unfold Pipeline.ΦA; rw [scopedRest0_eq]; simp only [scXs, scAcc, owns_whole]; try rfl

/-! ## What the scratch blocks and the output block hold -/

/-- The grid's first point. -/
def t0 : Fin cfg0.N := ⟨0, by rw [show cfg0.N = 64 from N_0]; exact Nat.zero_lt_succ _⟩

/-- xs: the coarse features projected, x_coarse . W_sym + b_sym, computed at the first point. -/
def xsVal (c : Dev nD) : Vec F S4096x64 .f32 := k0_pay1 (iblk m c 0 t0) (iblk m c 1 t0) (iblk m c 2 t0)

/-- acc after point n: a row tile's first chunk starts it, every later chunk adds its partial product. -/
def accAt (c : Dev nD) : (n : ℕ) → n < cfg0.N → Vec F S2048x64 .f32
  | 0, h => k0_pay3 (iblk m c 3 ⟨0, h⟩) (xsSlice (xsVal m c) (grid0.coords ⟨0, h⟩))
  | n + 1, h =>
    if (n + 1) % 8 = 0 then k0_pay3 (iblk m c 3 ⟨n + 1, h⟩) (xsSlice (xsVal m c) (grid0.coords ⟨n + 1, h⟩))
    else k0_pay4 (iblk m c 3 ⟨n + 1, h⟩) (xsSlice (xsVal m c) (grid0.coords ⟨n + 1, h⟩)) (accAt c n (Nat.lt_of_succ_lt h))

theorem accAt_start (c : Dev nD) (t : Fin cfg0.N) (h : t.val % 8 = 0) :
    accAt m c t.val t.isLt = k0_pay3 (iblk m c 3 t) (xsSlice (xsVal m c) (grid0.coords t)) := by
  obtain ⟨n, hn⟩ := t
  cases n with
  | zero => rfl
  | succ n => exact if_pos h

theorem accAt_add (c : Dev nD) (t : Fin cfg0.N) (h : t.val % 8 ≠ 0) :
    accAt m c t.val t.isLt = k0_pay4 (iblk m c 3 t) (xsSlice (xsVal m c) (grid0.coords t))
      (accAt m c (t.val - 1) (Nat.lt_of_le_of_lt (Nat.sub_le _ _) t.isLt)) := by
  obtain ⟨n, hn⟩ := t
  cases n with
  | zero => exact absurd (Nat.zero_mod 8) h
  | succ n => exact if_neg h

/-- The output block stored at a row tile's last chunk: acc . W_fuse[0..63] + x_fine . W_fuse[64..319] + b_fuse. -/
def outAt (c : Dev nD) (t : Fin cfg0.N) : Vec F S2048x256 .f32 :=
  k0_pay5 (accAt m c t.val t.isLt) (iblk m c 5 t) (iblk m c 4 t) (iblk m c 6 t) (iblk m c 7 t)

/-- The invariant before point n: at the start whatever the launch gives; later, xs at the projection and acc at
    what point n - 1 left. -/
def Phi (c : Dev nD) : (n : ℕ) → n ≤ cfg0.N → sProp 𝕄
  | 0, _ => Pipeline.ΦA spec0 c
  | n + 1, h => iprop(iprop(owns (c : Thread nD τ) scXs fullShare (xsVal m c) ∗ owns (c : Thread nD τ) scAcc fullShare (accAt m c n h)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scXs fullShare (xsVal m c) ∗ owns (c : Thread nD τ) scAcc fullShare (accAt m c n hn)) ∗ (∃ r, prngReg c r)) := rfl

theorem Phi_pos (c : Dev nD) (n : ℕ) (h : n ≤ cfg0.N) (hz : n ≠ 0) :
    Phi m c n h = iprop(iprop(owns (c : Thread nD τ) scXs fullShare (xsVal m c)
      ∗ owns (c : Thread nD τ) scAcc fullShare (accAt m c (n - 1) (by omega))) ∗ (∃ r, prngReg c r)) := by
  cases n with
  | zero => exact absurd rfl hz
  | succ n => rfl

/-! ## The proof data -/

/-- The arrays as the region finds them; after the body each input's buffer at its block, the output's at
    `outAt`; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## Where the windows are live -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
/-- Off a row tile's last chunk the output window is idle and is not written back; at it, it is live. -/
theorem idle_8 : ∀ t : Fin cfg0.N, ¬cond4 (grid0.coords t) → cfg0.idle 8 (grid0.coords t) = true := by decide +kernel
theorem noFlush_8 : ∀ t : Fin cfg0.N, ¬cond4 (grid0.coords t) → (cfg0.win 8).flush t = false := by decide +kernel
theorem live_8 : ∀ t : Fin cfg0.N, cond4 (grid0.coords t) → cfg0.idle 8 (grid0.coords t) = false := by decide +kernel

/-! ## The body obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  have hN : t.val < 64 := lt_of_lt_of_eq t.isLt (show cfg0.N = 64 from N_0)
  by_cases hz : t.val = 0
  · -- the first point
    have hc1 : cond1 (grid0.coords t) := (hcond1 t).mpr hz
    have hc2 : cond2 (grid0.coords t) := (hcond2 t).mpr (by omega)
    have hc3 : ¬cond3 (grid0.coords t) := fun h => (hcond3 t).mp h (by omega)
    have hc4 : ¬cond4 (grid0.coords t) := fun h => by have := (hcond4 t).mp h; omega
    rw [Dat.leavesExact_idle (dats m 0 c) 8 t (idle_8 t hc4) (noFlush_8 t hc4)]
    rw [accAt_start m c t (by omega)]
    have ht : t = t0 := Fin.ext hz
    rw [show xsVal m c = k0_pay1 (iblk m c 0 t) (iblk m c 1 t) (iblk m c 2 t) from by rw [ht]; rfl]
    rw [Phi_castSucc m c t, Phi_zero m c _ _ hz, PhiA_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    icases HΦ with ⟨⟨HX, HA⟩, Hg⟩
    iapply (run_first (F := F) c (grid0.coords t) _ _ _ _ _ _ _ _ _ _ _ _ _ _ _ _ _ _ _ _ _ _ hc1 hc2 hc3 hc4 (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [HX]; · iexact HX
    isplitl [HA]; · iexact HA
    iintro ⟨H0, H1, H2, H3, HX, HA⟩
    isplitl [HX HA Hg]
    · isplitl [HX HA]
      · isplitl [HX]; · iexact HX
        iexact HA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [Phi_castSucc m c t, Phi_pos m c _ _ hz]
    have hc1 : ¬cond1 (grid0.coords t) := fun h => hz ((hcond1 t).mp h)
    by_cases h0 : t.val % 8 = 0
    · -- a later row tile's first chunk
      have hc2 : cond2 (grid0.coords t) := (hcond2 t).mpr h0
      have hc3 : ¬cond3 (grid0.coords t) := fun h => (hcond3 t).mp h h0
      have hc4 : ¬cond4 (grid0.coords t) := fun h => by have := (hcond4 t).mp h; omega
      rw [Dat.leavesExact_idle (dats m 0 c) 8 t (idle_8 t hc4) (noFlush_8 t hc4)]
      rw [accAt_start m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases HΦ with ⟨⟨HX, HA⟩, Hg⟩
      iapply (run_start (F := F) c (grid0.coords t) _ _ _ _ _ _ _ _ _ _ _ _ _ _ _ _ _ _ _ _ _ _ hc1 hc2 hc3 hc4 (iblk m c 3 t) (xsVal m c) Set.univ _)
      isplitl [H3]; · iexact H3
      isplitl [HX]; · iexact HX
      isplitl [HA]; · iexists _; iexact HA
      iintro ⟨H3, HX, HA⟩
      isplitl [HX HA Hg]
      · isplitl [HX HA]
        · isplitl [HX]; · iexact HX
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · have hc2 : ¬cond2 (grid0.coords t) := fun h => h0 ((hcond2 t).mp h)
      have hc3 : cond3 (grid0.coords t) := (hcond3 t).mpr h0
      rw [accAt_add m c t h0]
      by_cases h7 : t.val % 8 = 7
      · -- a row tile's last chunk
        have hc4 : cond4 (grid0.coords t) := (hcond4 t).mpr h7
        rw [show (dats m 0 c).leavesExact 8 t = owns (c : Thread nD τ) (ms8 t) fullShare ((dats m 0 c).after 8 t) from by
          unfold Dat.leavesExact; rw [live_8 t hc4], after_8]
        unfold outAt
        rw [accAt_add m c t h0]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        icases HΦ with ⟨⟨HX, HA⟩, Hg⟩
        iapply (run_last (F := F) c (grid0.coords t) _ _ _ _ _ _ _ _ _ _ _ _ _ _ _ _ _ _ _ _ _ _ hc1 hc2 hc3 hc4 (iblk m c 3 t) (iblk m c 4 t) (iblk m c 5 t) (iblk m c 6 t) (iblk m c 7 t) (xsVal m c) _ Set.univ _)
        isplitl [H3]; · iexact H3
        isplitl [H4]; · iexact H4
        isplitl [H5]; · iexact H5
        isplitl [H6]; · iexact H6
        isplitl [H7]; · iexact H7
        isplitl [H8]; · iexists _; iexact H8
        isplitl [HX]; · iexact HX
        isplitl [HA]; · iexact HA
        iintro ⟨H3, H4, H5, H6, H7, H8, HX, HA⟩
        isplitl [HX HA Hg]
        · isplitl [HX HA]
          · isplitl [HX]; · iexact HX
            iexact HA
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · -- a middle chunk
        have hc4 : ¬cond4 (grid0.coords t) := fun h => h7 ((hcond4 t).mp h)
        rw [Dat.leavesExact_idle (dats m 0 c) 8 t (idle_8 t hc4) (noFlush_8 t hc4)]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        icases HΦ with ⟨⟨HX, HA⟩, Hg⟩
        iapply (run_add (F := F) c (grid0.coords t) _ _ _ _ _ _ _ _ _ _ _ _ _ _ _ _ _ _ _ _ _ _ hc1 hc2 hc3 hc4 (iblk m c 3 t) (xsVal m c) _ Set.univ _)
        isplitl [H3]; · iexact H3
        isplitl [HX]; · iexact HX
        isplitl [HA]; · iexact HA
        iintro ⟨H3, HX, HA⟩
        isplitl [HX HA Hg]
        · isplitl [HX HA]
          · isplitl [HX]; · iexact HX
            iexact HA
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the scratch blocks' contents are forgotten again. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 64 := N_0; omega), PhiA_eq]
  iintro ⟨⟨HX, HA⟩, Hg⟩
  isplitl [HX HA]
  · isplitl [HX]; · iexists _; iexact HX
    iexists _; iexact HA
  iexact Hg

/-! ## The run and the frame -/

set_option backward.isDefEq.respectTransparency.types false in
/-- Every weakly fair execution of @main terminates without a fault; at the end every array of the pipeline holds
    what the library computes from the proof data, every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its seven argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Carried
end
-- ==== Proof.KernelIdealSteps.lean ====
/-
  The kernel body, run case by case.

  The grid is 8 row tiles by 8 contraction chunks; the point t = 8 i + k has row tile i and chunk k. The body
  keeps two scratch blocks between points: xs (4096 x 64), the projected coarse features
  x_coarse . W_sym + b_sym, and acc (2048 x 64), the running product of the row tile's interpolation block with xs.
  Four conditionals on (i, k) guard its stores: at (0, 0) it fills xs; at k = 0 it overwrites acc with this chunk's
  partial product interp[i, k] . xs[512 k .. 512 k + 511]; at k > 0 it adds the partial product to acc; at k = 7
  it stores acc . W_fuse[0..63] + x_fine[i] . W_fuse[64..319] + b_fuse into the output block. Only four
  assignments of the four conditions occur on the grid: t = 0; k = 0 with i > 0; 0 < k < 7; k = 7. For each
  of them this module proves one triple: from the buffers that case touches, at named contents, the body
  runs to the same buffers holding what the case stores, stated through the skeleton's payload functions.
  Everything is stated at any float instance F.
-/
import proofs.«163065_g84232898609311_cont_9to1c4b_835_18_alg».proof.Proof.Gen.KernelIdeal.Frame
import proofs.«163065_g84232898609311_cont_9to1c4b_835_18_alg».proof.Proof.Gen.KernelIdeal.Skeleton
import Idealize.ShloMosaic.Lib.Pipeline.Value

set_option maxRecDepth 16384

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The four conditions -/

/-- The first branch's condition: both grid coordinates are zero. -/
abbrev cond1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
/-- The second branch's condition: the contraction coordinate is zero. -/
abbrev cond2 (i : grid0.Coords) : Prop := Scalar.cmpi .ne (Scalar.extui (Scalar.cmpi .eq (BitVec.ofNat 32 (i 1).val) 0#32)) 0#32 = 1#1
/-- The third branch's condition: the contraction coordinate is positive. -/
abbrev cond3 (i : grid0.Coords) : Prop := Scalar.cmpi .ne (Scalar.extui (Scalar.cmpi .sgt (BitVec.ofNat 32 (i 1).val) 0#32)) 0#32 = 1#1
/-- The fourth branch's condition: the contraction coordinate is the last one. -/
abbrev cond4 (i : grid0.Coords) : Prop := k0_cond4 i = 1#1

/-- Both coordinates vanish at the first point only. -/
theorem hcond1 : ∀ t : Fin cfg0.N, cond1 (grid0.coords t) ↔ t.val = 0 :=
  (by decide +kernel : ∀ t : Fin grid0.N, cond1 (grid0.coords t) ↔ t.val = 0)
/-- The chunk coordinate vanishes at the points 8 i. -/
theorem hcond2 : ∀ t : Fin cfg0.N, cond2 (grid0.coords t) ↔ t.val % 8 = 0 :=
  (by decide +kernel : ∀ t : Fin grid0.N, cond2 (grid0.coords t) ↔ t.val % 8 = 0)
/-- The chunk coordinate is positive at every other point. -/
theorem hcond3 : ∀ t : Fin cfg0.N, cond3 (grid0.coords t) ↔ t.val % 8 ≠ 0 :=
  (by decide +kernel : ∀ t : Fin grid0.N, cond3 (grid0.coords t) ↔ t.val % 8 ≠ 0)
/-- The chunk coordinate is the last one at the points 8 i + 7. -/
theorem hcond4 : ∀ t : Fin cfg0.N, cond4 (grid0.coords t) ↔ t.val % 8 = 7 :=
  (by decide +kernel : ∀ t : Fin grid0.N, cond4 (grid0.coords t) ↔ t.val % 8 = 7)

/-! ## Whole-block loads and stores -/

/-- The zero offsets of a rank-two block, as the printed rectangles spell them. -/
theorem zero2 : (![0, 0] : Fin 2 → ℕ) = fun _ => 0 := by
  funext a; fin_cases a <;> rfl

/-- One store of a whole block leaves its payload in the buffer, whatever the buffer held before. -/
theorem read_store_whole {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- Rows 512 k .. 512 k + 511 of the projected coarse features: the chunk that contraction step k multiplies. -/
def xsSlice (xs : Vec F S4096x64 .f32) (i : grid0.Coords) : Vec F S512x64 .f32 :=
  View.ld xs (Rect.unit (s := S4096x64) (k0_off1 i) S512x64.size (k0_off1_inb i))

/-! ## The first point: xs is filled, acc is started -/

set_option maxHeartbeats 1000000 in
theorem run_first (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : cond1 i) (hc2 : cond2 i) (hc3 : ¬cond3 i) (hc4 : ¬cond4 i)
    (x0 : Vec F S4096x256 .f32) (x1 : Vec F S256x64 .f32) (x2 : Vec F S1x64 .f32) (x3 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg11 fullShare (k0_pay1 x0 x1 x2)
            ∗ owns (c : Thread nD τ) arg12 fullShare (k0_pay3 x3 (xsSlice (k0_pay1 x0 x1 x2) i))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f2, %hf2, H2⟩, ⟨%f3, %hf3, H3⟩, ⟨%f4, %hf4, H4⟩, ⟨%f5, %hf5, H5⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5
  sl_exec (disch := first | exact hc1 | exact hc2 | exact hc3 | exact hc4)
  sl_step
  have e11 : arg11.view.read (Elt F) (arg11.view.writes (Elt F) arg11.view.junk
      [(⟨Rect.unit ![0, 0] S4096x64.size inb_S4096x64_S4096x64_0_0, k0_pay1
        (View.readAt (Elt F) arg2.view (Rect.unit ![0, 0] S4096x256.size inb_S4096x256_S4096x256_0_0).toLoadRect (harg2.unread x0))
        (View.readAt (Elt F) arg3.view (Rect.unit ![0, 0] S256x64.size inb_S256x64_S256x64_0_0).toLoadRect (harg3.unread x1))
        (View.readAt (Elt F) arg4.view (Rect.unit ![0, 0] S1x64.size inb_S1x64_S1x64_0_0).toLoadRect (harg4.unread x2))⟩ : View.Piece (Elt F) S4096x64 .f32)])
      = k0_pay1 x0 x1 x2 := by
    rw [read_store_whole _ _ zero2]
    simp only [View.readAt_eq_ld, harg2.read_unread, harg3.read_unread, harg4.read_unread,
      View.ld_unit_zero (S := S4096x256) zero2, View.ld_unit_zero (S := S256x64) zero2, View.ld_unit_zero (S := S1x64) zero2]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H11]
  · iexists _; isplitr
    swap; · iexact H11
    ipureintro; sl_unfold_words; exact e11
  iexists _; isplitr
  swap; · iexact H12
  ipureintro; sl_unfold_words
  rw [read_store_whole _ _ zero2]
  simp only [View.readAt_eq_ld, harg5.read_unread, View.ld_unit_zero (S := S2048x512) zero2]
  unfold xsSlice
  rw [← e11]
  rfl

/-! ## A later row tile's first chunk: acc is started over -/

set_option maxHeartbeats 1000000 in
theorem run_start (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : ¬cond1 i) (hc2 : cond2 i) (hc3 : ¬cond3 i) (hc4 : ¬cond4 i)
    (x3 : Vec F S2048x512 .f32) (xs : Vec F S4096x64 .f32) (E : Set ℕ) (K : PUnit → sProp 𝕄) :
    iprop(owns (c : Thread nD τ) arg5 fullShare x3 ∗ owns (c : Thread nD τ) arg11 fullShare xs ∗ (∃ d, owns (c : Thread nD τ) arg12 fullShare d)
        ∗ (iprop(owns (c : Thread nD τ) arg5 fullShare x3 ∗ owns (c : Thread nD τ) arg11 fullShare xs
            ∗ owns (c : Thread nD τ) arg12 fullShare (k0_pay3 x3 (xsSlice xs i))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f5, %hf5, H5⟩, ⟨%f11, %hf11, H11⟩, ⟨%d12, %f12, -, H12⟩, Hk⟩
  obtain rfl := harg5.eq_unread hf5; obtain rfl := harg11.eq_unread hf11
  sl_exec (disch := first | exact hc1 | exact hc2 | exact hc3 | exact hc4)
  sl_step
  iapply Hk
  isplitl [H5]
  · iexists _; isplitr; · ipureintro; exact harg5.read_unread _
    iexact H5
  isplitl [H11]
  · iexists _; isplitr; · ipureintro; exact harg11.read_unread _
    iexact H11
  iexists _; isplitr
  swap; · iexact H12
  ipureintro; sl_unfold_words
  rw [read_store_whole _ _ zero2]
  simp only [View.readAt_eq_ld, harg5.read_unread, harg11.read_unread, View.ld_unit_zero (S := S2048x512) zero2]
  rfl

/-! ## A middle chunk: the partial product is added to acc -/

set_option maxHeartbeats 1000000 in
theorem run_add (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : ¬cond1 i) (hc2 : ¬cond2 i) (hc3 : cond3 i) (hc4 : ¬cond4 i)
    (x3 : Vec F S2048x512 .f32) (xs : Vec F S4096x64 .f32) (acc : Vec F S2048x64 .f32) (E : Set ℕ) (K : PUnit → sProp 𝕄) :
    iprop(owns (c : Thread nD τ) arg5 fullShare x3 ∗ owns (c : Thread nD τ) arg11 fullShare xs ∗ owns (c : Thread nD τ) arg12 fullShare acc
        ∗ (iprop(owns (c : Thread nD τ) arg5 fullShare x3 ∗ owns (c : Thread nD τ) arg11 fullShare xs
            ∗ owns (c : Thread nD τ) arg12 fullShare (k0_pay4 x3 (xsSlice xs i) acc)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f5, %hf5, H5⟩, ⟨%f11, %hf11, H11⟩, ⟨%f12, %hf12, H12⟩, Hk⟩
  obtain rfl := harg5.eq_unread hf5; obtain rfl := harg11.eq_unread hf11; obtain rfl := harg12.eq_unread hf12
  sl_exec (disch := first | exact hc1 | exact hc2 | exact hc3 | exact hc4)
  sl_step
  iapply Hk
  isplitl [H5]
  · iexists _; isplitr; · ipureintro; exact harg5.read_unread _
    iexact H5
  isplitl [H11]
  · iexists _; isplitr; · ipureintro; exact harg11.read_unread _
    iexact H11
  iexists _; isplitr
  swap; · iexact H12
  ipureintro; sl_unfold_words
  rw [read_store_whole _ _ zero2]
  simp only [View.readAt_eq_ld, harg5.read_unread, harg11.read_unread, harg12.read_unread,
    View.ld_unit_zero (S := S2048x512) zero2, View.ld_unit_zero (S := S2048x64) zero2]
  rfl

/-! ## The last chunk: the partial product is added and the output block is stored -/

set_option maxHeartbeats 1000000 in
theorem run_last (c : Dev nD) (i : grid0.Coords) (arg2 : Memref sig .tc .vmem S4096x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S2048x512 .f32) (harg5 : arg5.IsWhole) (arg6 : Memref sig .tc .vmem S2048x256 .f32) (harg6 : arg6.IsWhole) (arg7 : Memref sig .tc .vmem S64x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S4096x64 .f32) (harg11 : arg11.IsWhole) (arg12 : Memref sig .tc .vmem S2048x64 .f32) (harg12 : arg12.IsWhole)
    (hc1 : ¬cond1 i) (hc2 : ¬cond2 i) (hc3 : cond3 i) (hc4 : cond4 i)
    (x3 : Vec F S2048x512 .f32) (x4 : Vec F S2048x256 .f32) (x5 : Vec F S64x256 .f32) (x6 : Vec F S256x256 .f32) (x7 : Vec F S1x256 .f32)
    (xs : Vec F S4096x64 .f32) (acc : Vec F S2048x64 .f32) (E : Set ℕ) (K : PUnit → sProp 𝕄) :
    iprop(owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ owns (c : Thread nD τ) arg11 fullShare xs ∗ owns (c : Thread nD τ) arg12 fullShare acc
        ∗ (iprop(owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (k0_pay5 (k0_pay4 x3 (xsSlice xs i) acc) x5 x4 x6 x7)
            ∗ owns (c : Thread nD τ) arg11 fullShare xs ∗ owns (c : Thread nD τ) arg12 fullShare (k0_pay4 x3 (xsSlice xs i) acc)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg5.eq_unread hf5; obtain rfl := harg6.eq_unread hf6; obtain rfl := harg7.eq_unread hf7; obtain rfl := harg8.eq_unread hf8
  obtain rfl := harg9.eq_unread hf9; obtain rfl := harg11.eq_unread hf11; obtain rfl := harg12.eq_unread hf12
  sl_exec (disch := first | exact hc1 | exact hc2 | exact hc3 | exact hc4)
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro; sl_unfold_words
    rw [read_store_whole _ _ zero2, View.readCov_unit_zero _ zero2]
    simp only [View.readAt_eq_ld, harg5.read_unread, harg11.read_unread, harg12.read_unread,
      harg6.read_unread, harg7.read_unread, harg8.read_unread, harg9.read_unread,
      View.ld_unit_zero (S := S2048x512) zero2, View.ld_unit_zero (S := S2048x64) zero2,
      View.ld_unit_zero (S := S2048x256) zero2, View.ld_unit_zero (S := S64x256) zero2,
      View.ld_unit_zero (S := S256x256) zero2, View.ld_unit_zero (S := S1x256) zero2]
    rfl
  isplitl [H11]
  · iexists _; isplitr; · ipureintro; exact harg11.read_unread _
    iexact H11
  iexists _; isplitr
  swap; · iexact H12
  ipureintro; sl_unfold_words
  rw [read_store_whole _ _ zero2]
  simp only [View.readAt_eq_ld, harg5.read_unread, harg11.read_unread, harg12.read_unread,
    View.ld_unit_zero (S := S2048x512) zero2, View.ld_unit_zero (S := S2048x64) zero2]
  rfl

end Cert.KernelIdeal.Steps
end
-- ==== Proof.KernelIdealCarried.lean ====
/-
  The proof data of the kernel's one pipeline, and the run of its frame.

  What the two scratch blocks hold is carried from point to point by the invariant: before the first point they
  hold anything; after it, xs holds the projection of the coarse features for good (nothing stores into it
  again), and acc holds, after point t = 8 i + k, the sum over the chunks 0 .. k of row tile i's interpolation
  block times the matching 512 rows of xs, built by the recursion acc(8 i) = part(8 i),
  acc(t) = acc(t - 1) + part(t). The input windows are left as found; the output window is stored only at the
  points 8 i + 7, where the pipeline writes it back, and is idle elsewhere. The body obligation is the four
  triples of the case analysis, chosen by t = 0, t mod 8 = 0, 0 < t mod 8 < 7, t mod 8 = 7.
-/
import proofs.«163065_g84232898609311_cont_9to1c4b_835_18_alg».proof.Proof.KernelIdealSteps
import Idealize.ShloMosaic.Lib.Pipeline.Value

set_option maxRecDepth 16384

noncomputable section

namespace Cert.KernelIdeal.Carried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Steps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x256 .f32 := win0_8.stage (cfg0.slots t 8)
abbrev hs8 (t : Fin cfg0.N) : (ms8 t).IsWhole := hstage0_8 ((cfg0.slots t 8).cast nbuf0_8)
/-- The scratch block of the projected coarse features, and the accumulator's. -/
abbrev scXs : Memref sig .tc .vmem S4096x64 .f32 := Memref.whole cc0_scratch0
abbrev scAcc : Memref sig .tc .vmem S2048x64 .f32 := Memref.whole cc0_scratch1

/-- The region's invariant as the launch hands it over: both scratch blocks at anything, the generator register
    at some state. -/
theorem PhiA_eq (c : Dev nD) :
    (Pipeline.ΦA spec0 c : sProp 𝕄)
      = iprop(iprop((∃ d, owns (c : Thread nD τ) scXs fullShare d) ∗ (∃ d, owns (c : Thread nD τ) scAcc fullShare d)) ∗ (∃ r, prngReg c r)) := by
  unfold Pipeline.ΦA; rw [scopedRest0_eq]; simp only [scXs, scAcc, owns_whole]; try rfl

/-! ## What the scratch blocks and the output block hold -/

/-- The grid's first point. -/
def t0 : Fin cfg0.N := ⟨0, by rw [show cfg0.N = 64 from N_0]; exact Nat.zero_lt_succ _⟩

/-- xs: the coarse features projected, x_coarse . W_sym + b_sym, computed at the first point. -/
def xsVal (c : Dev nD) : Vec F S4096x64 .f32 := k0_pay1 (iblk m c 0 t0) (iblk m c 1 t0) (iblk m c 2 t0)

/-- acc after point n: a row tile's first chunk starts it, every later chunk adds its partial product. -/
def accAt (c : Dev nD) : (n : ℕ) → n < cfg0.N → Vec F S2048x64 .f32
  | 0, h => k0_pay3 (iblk m c 3 ⟨0, h⟩) (xsSlice (xsVal m c) (grid0.coords ⟨0, h⟩))
  | n + 1, h =>
    if (n + 1) % 8 = 0 then k0_pay3 (iblk m c 3 ⟨n + 1, h⟩) (xsSlice (xsVal m c) (grid0.coords ⟨n + 1, h⟩))
    else k0_pay4 (iblk m c 3 ⟨n + 1, h⟩) (xsSlice (xsVal m c) (grid0.coords ⟨n + 1, h⟩)) (accAt c n (Nat.lt_of_succ_lt h))

theorem accAt_start (c : Dev nD) (t : Fin cfg0.N) (h : t.val % 8 = 0) :
    accAt m c t.val t.isLt = k0_pay3 (iblk m c 3 t) (xsSlice (xsVal m c) (grid0.coords t)) := by
  obtain ⟨n, hn⟩ := t
  cases n with
  | zero => rfl
  | succ n => exact if_pos h

theorem accAt_add (c : Dev nD) (t : Fin cfg0.N) (h : t.val % 8 ≠ 0) :
    accAt m c t.val t.isLt = k0_pay4 (iblk m c 3 t) (xsSlice (xsVal m c) (grid0.coords t))
      (accAt m c (t.val - 1) (Nat.lt_of_le_of_lt (Nat.sub_le _ _) t.isLt)) := by
  obtain ⟨n, hn⟩ := t
  cases n with
  | zero => exact absurd (Nat.zero_mod 8) h
  | succ n => exact if_neg h

/-- The output block stored at a row tile's last chunk: acc . W_fuse[0..63] + x_fine . W_fuse[64..319] + b_fuse. -/
def outAt (c : Dev nD) (t : Fin cfg0.N) : Vec F S2048x256 .f32 :=
  k0_pay5 (accAt m c t.val t.isLt) (iblk m c 5 t) (iblk m c 4 t) (iblk m c 6 t) (iblk m c 7 t)

/-- The invariant before point n: at the start whatever the launch gives; later, xs at the projection and acc at
    what point n - 1 left. -/
def Phi (c : Dev nD) : (n : ℕ) → n ≤ cfg0.N → sProp 𝕄
  | 0, _ => Pipeline.ΦA spec0 c
  | n + 1, h => iprop(iprop(owns (c : Thread nD τ) scXs fullShare (xsVal m c) ∗ owns (c : Thread nD τ) scAcc fullShare (accAt m c n h)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scXs fullShare (xsVal m c) ∗ owns (c : Thread nD τ) scAcc fullShare (accAt m c n hn)) ∗ (∃ r, prngReg c r)) := rfl

theorem Phi_pos (c : Dev nD) (n : ℕ) (h : n ≤ cfg0.N) (hz : n ≠ 0) :
    Phi m c n h = iprop(iprop(owns (c : Thread nD τ) scXs fullShare (xsVal m c)
      ∗ owns (c : Thread nD τ) scAcc fullShare (accAt m c (n - 1) (by omega))) ∗ (∃ r, prngReg c r)) := by
  cases n with
  | zero => exact absurd rfl hz
  | succ n => rfl

/-! ## The proof data -/

/-- The arrays as the region finds them; after the body each input's buffer at its block, the output's at
    `outAt`; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## Where the windows are live -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
/-- Off a row tile's last chunk the output window is idle and is not written back; at it, it is live. -/
theorem idle_8 : ∀ t : Fin cfg0.N, ¬cond4 (grid0.coords t) → cfg0.idle 8 (grid0.coords t) = true := by decide +kernel
theorem noFlush_8 : ∀ t : Fin cfg0.N, ¬cond4 (grid0.coords t) → (cfg0.win 8).flush t = false := by decide +kernel
theorem live_8 : ∀ t : Fin cfg0.N, cond4 (grid0.coords t) → cfg0.idle 8 (grid0.coords t) = false := by decide +kernel

/-! ## The body obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  have hN : t.val < 64 := lt_of_lt_of_eq t.isLt (show cfg0.N = 64 from N_0)
  by_cases hz : t.val = 0
  · -- the first point
    have hc1 : cond1 (grid0.coords t) := (hcond1 t).mpr hz
    have hc2 : cond2 (grid0.coords t) := (hcond2 t).mpr (by omega)
    have hc3 : ¬cond3 (grid0.coords t) := fun h => (hcond3 t).mp h (by omega)
    have hc4 : ¬cond4 (grid0.coords t) := fun h => by have := (hcond4 t).mp h; omega
    rw [Dat.leavesExact_idle (dats m 0 c) 8 t (idle_8 t hc4) (noFlush_8 t hc4)]
    rw [accAt_start m c t (by omega)]
    have ht : t = t0 := Fin.ext hz
    rw [show xsVal m c = k0_pay1 (iblk m c 0 t) (iblk m c 1 t) (iblk m c 2 t) from by rw [ht]; rfl]
    rw [Phi_castSucc m c t, Phi_zero m c _ _ hz, PhiA_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    icases HΦ with ⟨⟨HX, HA⟩, Hg⟩
    iapply (run_first (F := F) c (grid0.coords t) _ _ _ _ _ _ _ _ _ _ _ _ _ _ _ _ _ _ _ _ _ _ hc1 hc2 hc3 hc4 (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [HX]; · iexact HX
    isplitl [HA]; · iexact HA
    iintro ⟨H0, H1, H2, H3, HX, HA⟩
    isplitl [HX HA Hg]
    · isplitl [HX HA]
      · isplitl [HX]; · iexact HX
        iexact HA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [Phi_castSucc m c t, Phi_pos m c _ _ hz]
    have hc1 : ¬cond1 (grid0.coords t) := fun h => hz ((hcond1 t).mp h)
    by_cases h0 : t.val % 8 = 0
    · -- a later row tile's first chunk
      have hc2 : cond2 (grid0.coords t) := (hcond2 t).mpr h0
      have hc3 : ¬cond3 (grid0.coords t) := fun h => (hcond3 t).mp h h0
      have hc4 : ¬cond4 (grid0.coords t) := fun h => by have := (hcond4 t).mp h; omega
      rw [Dat.leavesExact_idle (dats m 0 c) 8 t (idle_8 t hc4) (noFlush_8 t hc4)]
      rw [accAt_start m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases HΦ with ⟨⟨HX, HA⟩, Hg⟩
      iapply (run_start (F := F) c (grid0.coords t) _ _ _ _ _ _ _ _ _ _ _ _ _ _ _ _ _ _ _ _ _ _ hc1 hc2 hc3 hc4 (iblk m c 3 t) (xsVal m c) Set.univ _)
      isplitl [H3]; · iexact H3
      isplitl [HX]; · iexact HX
      isplitl [HA]; · iexists _; iexact HA
      iintro ⟨H3, HX, HA⟩
      isplitl [HX HA Hg]
      · isplitl [HX HA]
        · isplitl [HX]; · iexact HX
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · have hc2 : ¬cond2 (grid0.coords t) := fun h => h0 ((hcond2 t).mp h)
      have hc3 : cond3 (grid0.coords t) := (hcond3 t).mpr h0
      rw [accAt_add m c t h0]
      by_cases h7 : t.val % 8 = 7
      · -- a row tile's last chunk
        have hc4 : cond4 (grid0.coords t) := (hcond4 t).mpr h7
        rw [show (dats m 0 c).leavesExact 8 t = owns (c : Thread nD τ) (ms8 t) fullShare ((dats m 0 c).after 8 t) from by
          unfold Dat.leavesExact; rw [live_8 t hc4], after_8]
        unfold outAt
        rw [accAt_add m c t h0]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        icases HΦ with ⟨⟨HX, HA⟩, Hg⟩
        iapply (run_last (F := F) c (grid0.coords t) _ _ _ _ _ _ _ _ _ _ _ _ _ _ _ _ _ _ _ _ _ _ hc1 hc2 hc3 hc4 (iblk m c 3 t) (iblk m c 4 t) (iblk m c 5 t) (iblk m c 6 t) (iblk m c 7 t) (xsVal m c) _ Set.univ _)
        isplitl [H3]; · iexact H3
        isplitl [H4]; · iexact H4
        isplitl [H5]; · iexact H5
        isplitl [H6]; · iexact H6
        isplitl [H7]; · iexact H7
        isplitl [H8]; · iexists _; iexact H8
        isplitl [HX]; · iexact HX
        isplitl [HA]; · iexact HA
        iintro ⟨H3, H4, H5, H6, H7, H8, HX, HA⟩
        isplitl [HX HA Hg]
        · isplitl [HX HA]
          · isplitl [HX]; · iexact HX
            iexact HA
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · -- a middle chunk
        have hc4 : ¬cond4 (grid0.coords t) := fun h => h7 ((hcond4 t).mp h)
        rw [Dat.leavesExact_idle (dats m 0 c) 8 t (idle_8 t hc4) (noFlush_8 t hc4)]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        icases HΦ with ⟨⟨HX, HA⟩, Hg⟩
        iapply (run_add (F := F) c (grid0.coords t) _ _ _ _ _ _ _ _ _ _ _ _ _ _ _ _ _ _ _ _ _ _ hc1 hc2 hc3 hc4 (iblk m c 3 t) (xsVal m c) _ Set.univ _)
        isplitl [H3]; · iexact H3
        isplitl [HX]; · iexact HX
        isplitl [HA]; · iexact HA
        iintro ⟨H3, HX, HA⟩
        isplitl [HX HA Hg]
        · isplitl [HX HA]
          · isplitl [HX]; · iexact HX
            iexact HA
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the scratch blocks' contents are forgotten again. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 64 := N_0; omega), PhiA_eq]
  iintro ⟨⟨HX, HA⟩, Hg⟩
  isplitl [HX HA]
  · isplitl [HX]; · iexists _; iexact HX
    iexists _; iexact HA
  iexact Hg

/-! ## The run and the frame -/

set_option backward.isDefEq.respectTransparency.types false in
/-- Every weakly fair execution of @main terminates without a fault; at the end every array of the pipeline holds
    what the library computes from the proof data, every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its seven argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Carried
end
-- ==== Proof.KernelIdealBlocks.lean ====
/-
  What the pipeline's windows hold, element by element, in terms of the program's seven argument arrays.

  A block's element at (r, l) is the array's element at (block index on the rows times the block's rows + r,
  block index on the columns times the block's columns + l). The row tile i = t / 8 and the chunk k = t mod 8
  are the two grid coordinates of point t. Three windows stage host results: the first 64 and the last 256 rows of
  W_fuse, and the two biases reshaped to one-row blocks.
-/
import proofs.«163065_g84232898609311_cont_9to1c4b_835_18_alg».proof.Proof.KernelIdealCarried
import Idealize.ShloMosaic.Lib.StableHlo.Run
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps Cert.KernelIdeal.Carried

variable {F : FTy → Type} [FloatOps F]
variable (m : (ℓ : Loc nD τ sig) → Buf (Elt F) ℓ)

/-! ## The block indices over the grid -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val / 8 ∧ win0_8.index t 1 = 0 :=
  (by decide +kernel : ∀ t : Fin grid0.N, win0_8.index t 0 = t.val / 8 ∧ win0_8.index t 1 = 0)

/-! ## The host results the region finds -/

theorem v0_eq (c : Dev nD) : (V m c main_v0 : S64x256.Idx → Elt F .f32)
    = extractStridedSlice S64x256 ![0, 0] (m ((c : Thread nD τ).loc main_arg5)) slices_S320x256_S64x256_0_0 := by
  dsimp only [V, hostOps0]; after_results
theorem v1_eq (c : Dev nD) : (V m c main_v1 : S256x256.Idx → Elt F .f32)
    = extractStridedSlice S256x256 ![64, 0] (m ((c : Thread nD τ).loc main_arg5)) slices_S320x256_S256x256_64_0 := by
  dsimp only [V, hostOps0]; after_results
theorem v2_eq (c : Dev nD) : (V m c main_v2 : S1x64.Idx → Elt F .f32)
    = shapeCast S1x64 (m ((c : Thread nD τ).loc main_arg4)) shapeCasts_S64_S1x64 := by
  dsimp only [V, hostOps0]; after_results; rfl
theorem v3_eq (c : Dev nD) : (V m c main_v3 : S1x256.Idx → Elt F .f32)
    = shapeCast S1x256 (m ((c : Thread nD τ).loc main_arg6)) shapeCasts_S256_S1x256 := by
  dsimp only [V, hostOps0]; after_results; rfl

/-! ## The blocks -/

/-- The coarse features, whole. -/
theorem blk0 (c : Dev nD) (t : Fin cfg0.N) (r : Fin 4096) (k : Fin 256) :
    (iblk m c 0 t : Vec F S4096x256 .f32) (ix2 r k) = ((m ((c : Thread nD τ).loc main_arg0)) : S4096x256.Idx → Elt F .f32) (ix2 r k) := by
  have hi := idx0 t
  unfold iblk
  rw [View.read_apply]
  show V m c main_arg0 _ = _
  rw [V_main_arg0]
  congr 1
  funext a
  apply Fin.ext
  match a with
  | ⟨0, _⟩ => show win0_0.index t 0 * 4096 + 1 * r.val = r.val; rw [hi.1]; omega
  | ⟨1, _⟩ => show win0_0.index t 1 * 256 + 1 * k.val = k.val; rw [hi.2]; omega

/-- W_sym, whole. -/
theorem blk1 (c : Dev nD) (t : Fin cfg0.N) (k : Fin 256) (j : Fin 64) :
    (iblk m c 1 t : Vec F S256x64 .f32) (ix2 k j) = ((m ((c : Thread nD τ).loc main_arg3)) : S256x64.Idx → Elt F .f32) (ix2 k j) := by
  have hi := idx1 t
  unfold iblk
  rw [View.read_apply]
  show V m c main_arg3 _ = _
  rw [V_main_arg3]
  congr 1
  funext a
  apply Fin.ext
  match a with
  | ⟨0, _⟩ => show win0_1.index t 0 * 256 + 1 * k.val = k.val; rw [hi.1]; omega
  | ⟨1, _⟩ => show win0_1.index t 1 * 64 + 1 * j.val = j.val; rw [hi.2]; omega

/-- b_sym as a one-row block. -/
theorem blk2 (c : Dev nD) (t : Fin cfg0.N) (j : Fin 64) :
    (iblk m c 2 t : Vec F S1x64 .f32) (ix2 0 j) = ((m ((c : Thread nD τ).loc main_arg4)) : S64.Idx → Elt F .f32) (ix1 j) := by
  have hi := idx2 t
  unfold iblk
  rw [View.read_apply]
  show V m c main_v2 _ = _
  rw [v2_eq]
  refine shapeCast_apply _ _ _ (ix1 j) ?_
  rw [Shape.rowMajor_val_one, Shape.rowMajor_val_two]
  show j.val = (win0_2.index t 0 * 1 + 1 * 0) * 64 + (win0_2.index t 1 * 64 + 1 * j.val)
  rw [hi.1, hi.2]; omega

/-- The interpolation matrix: rows 2048 i .., columns 512 k ... -/
theorem blk3 (c : Dev nD) (t : Fin cfg0.N) (r : Fin 2048) (l : Fin 512) (R : Fin 16384) (κ : Fin 4096)
    (hR : R.val = 2048 * (t.val / 8) + r.val) (hκ : κ.val = 512 * (t.val % 8) + l.val) :
    (iblk m c 3 t : Vec F S2048x512 .f32) (ix2 r l) = ((m ((c : Thread nD τ).loc main_arg2)) : S16384x4096.Idx → Elt F .f32) (ix2 R κ) := by
  have hi := idx3 t
  unfold iblk
  rw [View.read_apply]
  show V m c main_arg2 _ = _
  rw [V_main_arg2]
  congr 1
  funext a
  apply Fin.ext
  match a with
  | ⟨0, _⟩ => show win0_3.index t 0 * 2048 + 1 * r.val = R.val; rw [hi.1, hR]; omega
  | ⟨1, _⟩ => show win0_3.index t 1 * 512 + 1 * l.val = κ.val; rw [hi.2, hκ]; omega

/-- The fine features: rows 2048 i ... -/
theorem blk4 (c : Dev nD) (t : Fin cfg0.N) (r : Fin 2048) (q : Fin 256) (R : Fin 16384)
    (hR : R.val = 2048 * (t.val / 8) + r.val) :
    (iblk m c 4 t : Vec F S2048x256 .f32) (ix2 r q) = ((m ((c : Thread nD τ).loc main_arg1)) : S16384x256.Idx → Elt F .f32) (ix2 R q) := by
  have hi := idx4 t
  unfold iblk
  rw [View.read_apply]
  show V m c main_arg1 _ = _
  rw [V_main_arg1]
  congr 1
  funext a
  apply Fin.ext
  match a with
  | ⟨0, _⟩ => show win0_4.index t 0 * 2048 + 1 * r.val = R.val; rw [hi.1, hR]; omega
  | ⟨1, _⟩ => show win0_4.index t 1 * 256 + 1 * q.val = q.val; rw [hi.2]; omega

/-- The first 64 rows of W_fuse. -/
theorem blk5 (c : Dev nD) (t : Fin cfg0.N) (q : Fin 64) (n : Fin 256) (Q : Fin 320) (hQ : Q.val = q.val) :
    (iblk m c 5 t : Vec F S64x256 .f32) (ix2 q n) = ((m ((c : Thread nD τ).loc main_arg5)) : S320x256.Idx → Elt F .f32) (ix2 Q n) := by
  have hi := idx5 t
  unfold iblk
  rw [View.read_apply]
  show V m c main_v0 _ = _
  rw [v0_eq]
  refine extractStridedSlice_apply _ _ _ _ _ (fun a => ?_)
  match a with
  | ⟨0, _⟩ => show Q.val = 0 + (win0_5.index t 0 * 64 + 1 * q.val); rw [hi.1, hQ]; omega
  | ⟨1, _⟩ => show n.val = 0 + (win0_5.index t 1 * 256 + 1 * n.val); rw [hi.2]; omega

/-- The last 256 rows of W_fuse. -/
theorem blk6 (c : Dev nD) (t : Fin cfg0.N) (q : Fin 256) (n : Fin 256) (Q : Fin 320) (hQ : Q.val = 64 + q.val) :
    (iblk m c 6 t : Vec F S256x256 .f32) (ix2 q n) = ((m ((c : Thread nD τ).loc main_arg5)) : S320x256.Idx → Elt F .f32) (ix2 Q n) := by
  have hi := idx6 t
  unfold iblk
  rw [View.read_apply]
  show V m c main_v1 _ = _
  rw [v1_eq]
  refine extractStridedSlice_apply _ _ _ _ _ (fun a => ?_)
  match a with
  | ⟨0, _⟩ => show Q.val = 64 + (win0_6.index t 0 * 256 + 1 * q.val); rw [hi.1, hQ]; omega
  | ⟨1, _⟩ => show n.val = 0 + (win0_6.index t 1 * 256 + 1 * n.val); rw [hi.2]; omega

/-- b_fuse as a one-row block. -/
theorem blk7 (c : Dev nD) (t : Fin cfg0.N) (n : Fin 256) :
    (iblk m c 7 t : Vec F S1x256 .f32) (ix2 0 n) = ((m ((c : Thread nD τ).loc main_arg6)) : S256.Idx → Elt F .f32) (ix1 n) := by
  have hi := idx7 t
  unfold iblk
  rw [View.read_apply]
  show V m c main_v3 _ = _
  rw [v3_eq]
  refine shapeCast_apply _ _ _ (ix1 n) ?_
  rw [Shape.rowMajor_val_one, Shape.rowMajor_val_two]
  show n.val = (win0_7.index t 0 * 1 + 1 * 0) * 256 + (win0_7.index t 1 * 256 + 1 * n.val)
  rw [hi.1, hi.2]; omega

/-- Rows 512 k + l of xs, read through the slice the chunk step loads. -/
theorem xsSlice_apply (xs : Vec F S4096x64 .f32) (t : Fin cfg0.N) (l : Fin 512) (j : Fin 64) (κ : Fin 4096)
    (hκ : κ.val = 512 * (t.val % 8) + l.val) :
    xsSlice xs (grid0.coords t) (ix2 l j) = xs (ix2 κ j) := by
  have hc : ((grid0.coords t) 1).val = t.val % 8 :=
    (by decide +kernel : ∀ t : Fin grid0.N, ((grid0.coords t) 1).val = t.val % 8) t
  unfold xsSlice
  show xs _ = xs _
  congr 1
  funext a
  apply Fin.ext
  match a with
  | ⟨0, _⟩ =>
    show (k0_off1 (grid0.coords t)) 0 + 1 * l.val = κ.val
    rw [k0_off1_eq]
    show 512 * ((grid0.coords t) 1).val + 1 * l.val = κ.val
    rw [hc, hκ]; omega
  | ⟨1, _⟩ =>
    show (k0_off1 (grid0.coords t)) 1 + 1 * j.val = j.val
    rw [k0_off1_eq]
    show 0 + 1 * j.val = j.val
    omega

end Cert.KernelIdeal.Blocks
end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.KernelIdealPayloads.lean ====
/-
  The body's five payloads read at an index, at the ideal values.

  Every matrix product of the body accumulates into a zero block, so at an index it is the plain sum over the
  contracted coordinate of row times column; a bias is a one-row block broadcast down the rows; a shape cast to
  the same shape is the identity. So, on extended reals:
    xs      (r, j) = sum_k x_coarse (r, k) * W_sym (k, j) + b_sym (0, j)
    part    (r, j) = sum_l interp_blk (r, l) * xs_chunk (l, j)
    acc'    (r, j) = acc (r, j) + part (r, j)
    out_blk (r, n) = (sum_q acc (r, q) * W1 (q, n) + sum_q x_fine_blk (r, q) * W2 (q, n)) + b_fuse (0, n).
-/
import proofs.«163065_g84232898609311_cont_9to1c4b_835_18_alg».proof.Proof.Gen.KernelIdeal.Skeleton
import proofs.«163065_g84232898609311_cont_9to1c4b_835_18_alg».proof.Proof.LibPlainDot
import Idealize.ShloMosaic.Lib.Pipeline.Value
import Idealize.ShloMosaic.Lib.ValueIdx
import Idealize.ShloMosaic.PureOps.Ideal.Laws

noncomputable section

namespace Cert.KernelIdeal.Payloads

open Idealize.ShloMosaic Idealize.ShloMosaic.ValueIdx Cert.KernelIdeal Cert.KernelIdeal.Gen

/-! ## The four matrix products -/

/-- The zero-accumulator product of record `dot_S4096x256_S256x64_S4096x64_1_0_0_1_n_n` at an index: the plain sum over the contracted coordinate. -/
theorem mm_D1 (l : FVec Ideal S4096x256 .f32) (r : FVec Ideal S256x64 .f32) (j : S4096x64.Idx) :
    matmul dot_S4096x256_S256x64_S4096x64_1_0_0_1_n_n none l r (constant (F := Ideal) S4096x64 .f32 0x00000000#32) j = ∑ k : Fin 256, l (ix2 (j 0) k) * r (ix2 k (j 1)) :=
  (Ideal.matmul_constant_zero_apply dot_S4096x256_S256x64_S4096x64_1_0_0_1_n_n none l r j).trans
    (Cert.Lib.PlainDot.sum_rows_cols dot_S4096x256_S256x64_S4096x64_1_0_0_1_n_n rfl rfl
      (fun i q => by
        unfold DotDims.lhsIdx
        rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
        rfl)
      (fun i q => dot_S4096x256_S256x64_S4096x64_1_0_0_1_n_n.lhsIdx_val_of_single rfl i q)
      (fun i q => dot_S4096x256_S256x64_S4096x64_1_0_0_1_n_n.rhsIdx_val_of_single rfl i q)
      (fun i q => by
        unfold DotDims.rhsIdx
        rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
        rfl)
      l r j)

/-- The zero-accumulator product of record `dot_S2048x512_S512x64_S2048x64_1_0_0_1_n_n` at an index: the plain sum over the contracted coordinate. -/
theorem mm_D2 (l : FVec Ideal S2048x512 .f32) (r : FVec Ideal S512x64 .f32) (j : S2048x64.Idx) :
    matmul dot_S2048x512_S512x64_S2048x64_1_0_0_1_n_n none l r (constant (F := Ideal) S2048x64 .f32 0x00000000#32) j = ∑ k : Fin 512, l (ix2 (j 0) k) * r (ix2 k (j 1)) :=
  (Ideal.matmul_constant_zero_apply dot_S2048x512_S512x64_S2048x64_1_0_0_1_n_n none l r j).trans
    (Cert.Lib.PlainDot.sum_rows_cols dot_S2048x512_S512x64_S2048x64_1_0_0_1_n_n rfl rfl
      (fun i q => by
        unfold DotDims.lhsIdx
        rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
        rfl)
      (fun i q => dot_S2048x512_S512x64_S2048x64_1_0_0_1_n_n.lhsIdx_val_of_single rfl i q)
      (fun i q => dot_S2048x512_S512x64_S2048x64_1_0_0_1_n_n.rhsIdx_val_of_single rfl i q)
      (fun i q => by
        unfold DotDims.rhsIdx
        rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
        rfl)
      l r j)

/-- The zero-accumulator product of record `dot_S2048x64_S64x256_S2048x256_1_0_0_1_n_n` at an index: the plain sum over the contracted coordinate. -/
theorem mm_D3 (l : FVec Ideal S2048x64 .f32) (r : FVec Ideal S64x256 .f32) (j : S2048x256.Idx) :
    matmul dot_S2048x64_S64x256_S2048x256_1_0_0_1_n_n none l r (constant (F := Ideal) S2048x256 .f32 0x00000000#32) j = ∑ k : Fin 64, l (ix2 (j 0) k) * r (ix2 k (j 1)) :=
  (Ideal.matmul_constant_zero_apply dot_S2048x64_S64x256_S2048x256_1_0_0_1_n_n none l r j).trans
    (Cert.Lib.PlainDot.sum_rows_cols dot_S2048x64_S64x256_S2048x256_1_0_0_1_n_n rfl rfl
      (fun i q => by
        unfold DotDims.lhsIdx
        rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
        rfl)
      (fun i q => dot_S2048x64_S64x256_S2048x256_1_0_0_1_n_n.lhsIdx_val_of_single rfl i q)
      (fun i q => dot_S2048x64_S64x256_S2048x256_1_0_0_1_n_n.rhsIdx_val_of_single rfl i q)
      (fun i q => by
        unfold DotDims.rhsIdx
        rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
        rfl)
      l r j)

/-- The zero-accumulator product of record `dot_S2048x256_S256x256_S2048x256_1_0_0_1_n_n` at an index: the plain sum over the contracted coordinate. -/
theorem mm_D4 (l : FVec Ideal S2048x256 .f32) (r : FVec Ideal S256x256 .f32) (j : S2048x256.Idx) :
    matmul dot_S2048x256_S256x256_S2048x256_1_0_0_1_n_n none l r (constant (F := Ideal) S2048x256 .f32 0x00000000#32) j = ∑ k : Fin 256, l (ix2 (j 0) k) * r (ix2 k (j 1)) :=
  (Ideal.matmul_constant_zero_apply dot_S2048x256_S256x256_S2048x256_1_0_0_1_n_n none l r j).trans
    (Cert.Lib.PlainDot.sum_rows_cols dot_S2048x256_S256x256_S2048x256_1_0_0_1_n_n rfl rfl
      (fun i q => by
        unfold DotDims.lhsIdx
        rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
        rfl)
      (fun i q => dot_S2048x256_S256x256_S2048x256_1_0_0_1_n_n.lhsIdx_val_of_single rfl i q)
      (fun i q => dot_S2048x256_S256x256_S2048x256_1_0_0_1_n_n.rhsIdx_val_of_single rfl i q)
      (fun i q => by
        unfold DotDims.rhsIdx
        rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
        rfl)
      l r j)

/-! ## A one-row block broadcast down the rows -/

/-- Row r, lane j of a [1, N] block broadcast to [M, N] is lane j of the one row. -/
theorem bias_row {M N : ℕ} (hN : N ≠ 1) (x : (⟨2, ![1, N]⟩ : Shape).Idx → EReal) (hc : (⟨2, ![1, N]⟩ : Shape).ShapeCasts ⟨2, ![1, N]⟩)
    (hb : (⟨2, ![1, N]⟩ : Shape).Broadcasts ⟨2, ![M, N]⟩) (r : Fin M) (j : Fin N) :
    broadcastTo (⟨2, ![M, N]⟩ : Shape) (shapeCast (⟨2, ![1, N]⟩ : Shape) x hc) hb (ix2 r j) = x (ix2 0 j) := by
  refine (broadcastTo_apply _ hb (ix2 r j) (ix2 (0 : Fin 1) j) (fun a => ?_)).trans (congrFun (shapeCast_self x hc) _)
  match a with
  | ⟨0, _⟩ => show (0 : ℕ) = if (1 : ℕ) = 1 then 0 else _; rw [if_pos rfl]
  | ⟨1, _⟩ => show j.val = if N = 1 then 0 else j.val; rw [if_neg hN]

/-! ## The payloads -/

theorem pay1_apply (x0 : Vec Ideal S4096x256 .f32) (x1 : Vec Ideal S256x64 .f32) (x2 : Vec Ideal S1x64 .f32) (r : Fin 4096) (j : Fin 64) :
    k0_pay1 (F := Ideal) x0 x1 x2 (ix2 r j) = (∑ k : Fin 256, x0 (ix2 r k) * x1 (ix2 k j)) + x2 (ix2 0 j) := by
  unfold k0_pay1
  refine (congrFun (shapeCast_self _ _) _).trans ?_
  exact congrArg₂ (· + ·) (mm_D1 x0 x1 (ix2 r j)) (bias_row (by decide) x2 _ _ r j)

theorem pay2_apply (v5 : Vec Ideal S2048x512 .f32) (v8 : Vec Ideal S512x64 .f32) (r : Fin 2048) (j : Fin 64) :
    k0_pay2 (F := Ideal) v5 v8 (ix2 r j) = ∑ l : Fin 512, v5 (ix2 r l) * v8 (ix2 l j) := by
  unfold k0_pay2
  exact mm_D2 v5 v8 (ix2 r j)

theorem pay3_apply (v5 : Vec Ideal S2048x512 .f32) (v8 : Vec Ideal S512x64 .f32) (r : Fin 2048) (j : Fin 64) :
    k0_pay3 (F := Ideal) v5 v8 (ix2 r j) = ∑ l : Fin 512, v5 (ix2 r l) * v8 (ix2 l j) := by
  unfold k0_pay3
  exact (congrFun (shapeCast_self _ _) _).trans (pay2_apply v5 v8 r j)

theorem pay4_apply (v5 : Vec Ideal S2048x512 .f32) (v8 : Vec Ideal S512x64 .f32) (v19 : Vec Ideal S2048x64 .f32) (r : Fin 2048) (j : Fin 64) :
    k0_pay4 (F := Ideal) v5 v8 v19 (ix2 r j) = v19 (ix2 r j) + ∑ l : Fin 512, v5 (ix2 r l) * v8 (ix2 l j) := by
  unfold k0_pay4
  refine (congrFun (shapeCast_self _ _) _).trans ?_
  exact congrArg (v19 (ix2 r j) + ·) (pay2_apply v5 v8 r j)

theorem pay5_apply (v19 : Vec Ideal S2048x64 .f32) (v20 : Vec Ideal S64x256 .f32) (v23 : Vec Ideal S2048x256 .f32)
    (v24 : Vec Ideal S256x256 .f32) (v28 : Vec Ideal S1x256 .f32) (r : Fin 2048) (n : Fin 256) :
    k0_pay5 (F := Ideal) v19 v20 v23 v24 v28 (ix2 r n)
      = ((∑ q : Fin 64, v19 (ix2 r q) * v20 (ix2 q n)) + (∑ q : Fin 256, v23 (ix2 r q) * v24 (ix2 q n))) + v28 (ix2 0 n) := by
  unfold k0_pay5
  refine congrArg₂ (· + ·) (congrArg₂ (· + ·) ?_ ?_) (bias_row (by decide) v28 _ _ r n)
  · rw [shapeCast_self]; exact mm_D3 v19 v20 (ix2 r n)
  · rw [shapeCast_self]; exact mm_D4 v23 v24 (ix2 r n)

end Cert.KernelIdeal.Payloads
end
-- ==== Proof.MeshUnpoolSpec.lean ====
/-
  The fused mesh-unpool map, as one function of the seven argument arrays, on the extended reals.

    proj   (r, j) = sum_k x_coarse (r, k) * W_sym (k, j) + b_sym (j)                     r < 4096,  j < 64
    lifted (R, j) = sum_kappa interp (R, kappa) * proj (kappa, j)                          R < 16384, j < 64
    fused  (R, n) = (sum_{q < 64}  lifted (R, q)  * W_fuse (q, n)
                   + sum_{q < 256} x_fine (R, q) * W_fuse (64 + q, n)) + b_fuse (n)        n < 256

  The reference contracts the concatenation [lifted | x_fine] against all 320 rows of W_fuse at once; splitting
  that sum at column 64 (`sum_split`) is a regrouping of a finite sum, which holds in any additive commutative
  monoid, so on the extended reals with infinities present too.
-/
import Idealize.ShloMosaic.Lib.ValueIdx
import Idealize.ShloMosaic.PureOps.Ideal
import Mathlib.Algebra.BigOperators.Fin

noncomputable section

namespace Cert.MeshUnpool

open Idealize.ShloMosaic Idealize.ShloMosaic.ValueIdx

/-- Column q of the first 64, and column 64 + q of the last 256, among the 320 concatenated columns. -/
def lo (q : Fin 64) : Fin 320 := ⟨q.val, by omega⟩
def hi (q : Fin 256) : Fin 320 := ⟨64 + q.val, by omega⟩

/-- A sum over the 320 concatenated columns splits at column 64. -/
theorem sum_split {M : Type*} [AddCommMonoid M] (f : Fin 320 → M) :
    ∑ Q : Fin 320, f Q = (∑ q : Fin 64, f (lo q)) + ∑ q : Fin 256, f (hi q) :=
  Fin.sum_univ_add (a := 64) (b := 256) f

section
variable (x0 : (⟨2, ![4096, 256]⟩ : Shape).Idx → EReal) (xf : (⟨2, ![16384, 256]⟩ : Shape).Idx → EReal)
  (s : (⟨2, ![16384, 4096]⟩ : Shape).Idx → EReal) (w1 : (⟨2, ![256, 64]⟩ : Shape).Idx → EReal)
  (b1 : (⟨1, ![64]⟩ : Shape).Idx → EReal) (wf : (⟨2, ![320, 256]⟩ : Shape).Idx → EReal) (bf : (⟨1, ![256]⟩ : Shape).Idx → EReal)

/-- The coarse features projected to 64 channels. -/
def proj (r : Fin 4096) (j : Fin 64) : EReal := (∑ k : Fin 256, x0 (ix2 r k) * w1 (ix2 k j)) + b1 (ix1 j)

/-- The projected features interpolated to the fine mesh. -/
def lifted (R : Fin 16384) (j : Fin 64) : EReal := ∑ κ : Fin 4096, s (ix2 R κ) * proj x0 w1 b1 κ j

/-- The fuse projection of [lifted | x_fine], with its bias. -/
def fused (i : (⟨2, ![16384, 256]⟩ : Shape).Idx) : EReal :=
  ((∑ q : Fin 64, lifted x0 s w1 b1 (i 0) q * wf (ix2 (lo q) (i 1)))
    + (∑ q : Fin 256, xf (ix2 (i 0) q) * wf (ix2 (hi q) (i 1)))) + bf (ix1 (i 1))
end

end Cert.MeshUnpool
end
-- ==== Proof.LibRangeTiles.lean ====
/-
  Sums taken tile by tile.

  A sequence `f 0, f 1, …` in an additive commutative monoid is laid out in tiles of `B` consecutive places:
  tile `K` holds the places `B * K + j` for `j < B`.  A computation that visits the tiles in order and adds each
  tile's total to a running accumulator holds, after `K` tiles, the sum of the first `B * K` places; one more tile
  adds the `B` places of tile `K` (`sum_range_tile_succ`).  Nothing but associativity and commutativity of `+` is used,
  so the law holds on the extended reals with infinities of both signs present.

  A sequence given only on `Fin N` is extended by zero to all of `ℕ` (`ext0`); its sum over the first `N` places is then
  the plain sum over `Fin N` (`sum_range_ext0`), and inside the range it reads the given value (`ext0_of_lt`).
-/
import Mathlib.Algebra.BigOperators.Group.Finset.Basic
import Mathlib.Algebra.BigOperators.Fin

namespace Cert.Lib.RangeTiles

open Finset

variable {M : Type*} [AddCommMonoid M]

/-- The sum over the first `B * (K + 1)` places is the sum over the first `B * K` places plus the total of tile `K`,
    whose places are `B * K + j` for `j : Fin B`. -/
theorem sum_range_tile_succ (f : ℕ → M) (B K : ℕ) :
    ∑ n ∈ range (B * (K + 1)), f n = ∑ n ∈ range (B * K), f n + ∑ j : Fin B, f (B * K + j.val) := by
  rw [Nat.mul_succ, Finset.sum_range_add]
  congr 1
  exact Finset.sum_range fun x => f (B * K + x)

/-- Before any tile the running sum is empty. -/
theorem sum_range_tile_zero (f : ℕ → M) (B : ℕ) : ∑ n ∈ range (B * 0), f n = 0 := by
  rw [Nat.mul_zero, Finset.sum_range_zero]

/-- A sequence on `Fin N` extended by zero to every natural number. -/
def ext0 (N : ℕ) (g : Fin N → M) (n : ℕ) : M := if h : n < N then g ⟨n, h⟩ else 0

/-- Inside the range the extension reads the given value. -/
theorem ext0_of_lt (N : ℕ) (g : Fin N → M) (n : ℕ) (h : n < N) : ext0 N g n = g ⟨n, h⟩ := dif_pos h

/-- The extension summed over the first `N` places is the sum over `Fin N`. -/
theorem sum_range_ext0 (N : ℕ) (g : Fin N → M) : ∑ n ∈ range N, ext0 N g n = ∑ n : Fin N, g n := by
  rw [Finset.sum_range]
  exact Finset.sum_congr rfl fun n _ => ext0_of_lt N g n.val n.isLt

end Cert.Lib.RangeTiles
-- ==== Proof.KernelIdealFused.lean ====
/-
  What the idealized kernel leaves in its result array: the fused mesh-unpool map of the arguments.

  The accumulator is a sum taken tile by tile. For row tile i and chunk k (point t = 8 i + k), acc after point t
  at (r, j) is the sum over the first 512 (k + 1) coarse vertices kappa of interp (2048 i + r, kappa) * proj (kappa, j):
  chunk 0 starts it with its 512 terms, each later chunk appends its own 512 (a regrouping of a finite sum only:
  no distributivity, so infinities do no harm). After chunk 7 that is the whole contraction, `lifted`. The output
  block stored at point 8 i + 7 is then rows 2048 i .. 2048 i + 2047 of `fused`; the eight such blocks are written
  back to the eight row tiles of the result array and cover it.
-/
import proofs.«163065_g84232898609311_cont_9to1c4b_835_18_alg».proof.Proof.KernelIdealBlocks
import proofs.«163065_g84232898609311_cont_9to1c4b_835_18_alg».proof.Proof.KernelIdealPayloads
import proofs.«163065_g84232898609311_cont_9to1c4b_835_18_alg».proof.Proof.MeshUnpoolSpec
import proofs.«163065_g84232898609311_cont_9to1c4b_835_18_alg».proof.Proof.LibRangeTiles

set_option maxRecDepth 16384

noncomputable section

namespace Cert.KernelIdeal.Fused

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps Cert.KernelIdeal.Carried Cert.KernelIdeal.Blocks
open Cert.KernelIdeal.Payloads Cert.MeshUnpool Cert.Lib.RangeTiles

variable (m : (ℓ : Loc nD τ sig) → Buf (Elt Ideal) ℓ) (ρ : Dev nD → PrngReg)

/-! ## The seven argument arrays -/

abbrev A0 (c : Dev nD) : S4096x256.Idx → EReal := m ((c : Thread nD τ).loc main_arg0)
abbrev A1 (c : Dev nD) : S16384x256.Idx → EReal := m ((c : Thread nD τ).loc main_arg1)
abbrev A2 (c : Dev nD) : S16384x4096.Idx → EReal := m ((c : Thread nD τ).loc main_arg2)
abbrev A3 (c : Dev nD) : S256x64.Idx → EReal := m ((c : Thread nD τ).loc main_arg3)
abbrev A4 (c : Dev nD) : S64.Idx → EReal := m ((c : Thread nD τ).loc main_arg4)
abbrev A5 (c : Dev nD) : S320x256.Idx → EReal := m ((c : Thread nD τ).loc main_arg5)
abbrev A6 (c : Dev nD) : S256.Idx → EReal := m ((c : Thread nD τ).loc main_arg6)

/-! ## The scratch blocks -/

/-- xs is the projection of the coarse features. -/
theorem xsVal_apply (c : Dev nD) (r : Fin 4096) (j : Fin 64) :
    xsVal m c (ix2 r j) = proj (A0 m c) (A3 m c) (A4 m c) r j := by
  unfold xsVal proj
  refine (pay1_apply _ _ _ r j).trans ?_
  exact congrArg₂ (· + ·) (Finset.sum_congr rfl fun k _ => congrArg₂ (· * ·) (blk0 m c t0 r k) (blk1 m c t0 k j)) (blk2 m c t0 j)

/-- One term of the interpolation's contraction for fine row R and channel j. -/
abbrev term (c : Dev nD) (R : Fin 16384) (j : Fin 64) (κ : Fin 4096) : EReal :=
  A2 m c (ix2 R κ) * proj (A0 m c) (A3 m c) (A4 m c) κ j

/-- A chunk step's partial product is the chunk's 512 terms of the contraction. -/
theorem part_apply (c : Dev nD) (t : Fin cfg0.N) (r : Fin 2048) (j : Fin 64) (R : Fin 16384)
    (hR : R.val = 2048 * (t.val / 8) + r.val) (v5 : Vec Ideal S2048x512 .f32) (hv : v5 = iblk m c 3 t) :
    ∑ l : Fin 512, v5 (ix2 r l) * xsSlice (xsVal m c) (grid0.coords t) (ix2 l j)
      = ∑ l : Fin 512, ext0 4096 (term m c R j) (512 * (t.val % 8) + l.val) := by
  subst hv
  refine Finset.sum_congr rfl fun l _ => ?_
  have hlt : 512 * (t.val % 8) + l.val < 4096 := by have := l.isLt; omega
  rw [ext0_of_lt _ _ _ hlt]
  exact congrArg₂ (· * ·) (blk3 m c t r l R ⟨_, hlt⟩ hR rfl)
    ((xsSlice_apply (xsVal m c) t l j ⟨_, hlt⟩ rfl).trans (xsVal_apply m c _ j))

/-- acc after point n: the contraction's first 512 (n mod 8 + 1) terms. -/
theorem accAt_apply (c : Dev nD) : ∀ (n : ℕ) (hn : n < cfg0.N) (r : Fin 2048) (j : Fin 64) (R : Fin 16384),
    R.val = 2048 * (n / 8) + r.val →
    accAt m c n hn (ix2 r j) = ∑ x ∈ Finset.range (512 * (n % 8 + 1)), ext0 4096 (term m c R j) x
  | 0, hn, r, j, R, hR => by
    rw [show accAt m c 0 hn = k0_pay3 (iblk m c 3 ⟨0, hn⟩) (xsSlice (xsVal m c) (grid0.coords ⟨0, hn⟩)) from rfl]
    refine (pay3_apply _ _ r j).trans ?_
    refine (part_apply m c ⟨0, hn⟩ r j R hR _ rfl).trans ?_
    show ∑ l : Fin 512, ext0 4096 (term m c R j) (512 * 0 + l.val) = ∑ x ∈ Finset.range (512 * (0 + 1)), _
    rw [sum_range_tile_succ, sum_range_tile_zero, zero_add]
  | n + 1, hn, r, j, R, hR => by
    by_cases h : (n + 1) % 8 = 0
    · rw [show accAt m c (n + 1) hn = k0_pay3 (iblk m c 3 ⟨n + 1, hn⟩) (xsSlice (xsVal m c) (grid0.coords ⟨n + 1, hn⟩)) from if_pos h]
      refine (pay3_apply _ _ r j).trans ?_
      refine (part_apply m c ⟨n + 1, hn⟩ r j R hR _ rfl).trans ?_
      show ∑ l : Fin 512, ext0 4096 (term m c R j) (512 * ((n + 1) % 8) + l.val) = _
      rw [h, sum_range_tile_succ, sum_range_tile_zero, zero_add]
    · rw [show accAt m c (n + 1) hn = k0_pay4 (iblk m c 3 ⟨n + 1, hn⟩) (xsSlice (xsVal m c) (grid0.coords ⟨n + 1, hn⟩))
        (accAt m c n (Nat.lt_of_succ_lt hn)) from if_neg h]
      refine (pay4_apply _ _ _ r j).trans ?_
      refine (congrArg₂ (· + ·) (accAt_apply c n (Nat.lt_of_succ_lt hn) r j R (by omega))
        (part_apply m c ⟨n + 1, hn⟩ r j R hR _ rfl)).trans ?_
      show _ + ∑ l : Fin 512, ext0 4096 (term m c R j) (512 * ((n + 1) % 8) + l.val) = _
      rw [show n % 8 + 1 = (n + 1) % 8 by omega, sum_range_tile_succ]

/-! ## The output block -/

/-- The block stored at a row tile's last chunk is that tile's rows of the fused map. -/
theorem outAt_apply (c : Dev nD) (t : Fin cfg0.N) (h7 : t.val % 8 = 7) (r : Fin 2048) (n : Fin 256) (R : Fin 16384)
    (hR : R.val = 2048 * (t.val / 8) + r.val) :
    outAt m c t (ix2 r n) = fused (A0 m c) (A1 m c) (A2 m c) (A3 m c) (A4 m c) (A5 m c) (A6 m c) (ix2 R n) := by
  unfold outAt
  refine (pay5_apply _ _ _ _ _ r n).trans ?_
  unfold fused
  refine congrArg₂ (· + ·) (congrArg₂ (· + ·) (Finset.sum_congr rfl fun q _ => ?_) (Finset.sum_congr rfl fun q _ => ?_)) (blk7 m c t n)
  · rw [accAt_apply m c t.val t.isLt r q R hR, h7, show 512 * (7 + 1) = 4096 from rfl, sum_range_ext0, blk5 m c t q n (lo q) rfl]
    rfl
  · rw [blk4 m c t r q R hR, blk6 m c t q n (hi q) rfl]

/-- The result array the run ends with. -/
def G (c : Dev nD) : Buf (Elt Ideal) ((c : Thread nD τ).loc main_v4) := fused (A0 m c) (A1 m c) (A2 m c) (A3 m c) (A4 m c) (A5 m c) (A6 m c)

/-- Each write-back writes its row tile of `G`. -/
theorem flushed_eq (c : Dev nD) (t : Fin cfg0.N) (hf : (cfg0.win 8).flush t = true) :
    (dats m 0 c).flushed 8 t = ((cfg0.win 8).blk t).view.read (Elt Ideal) (G m c) := by
  have h7 : t.val % 8 = 7 := (flush0_8 t).mp hf
  have hN : t.val < 64 := lt_of_lt_of_eq t.isLt (show cfg0.N = 64 from N_0)
  have hi := idx8 t
  show (cfg0.win 8).cut (grid0.coords t) ((dats m 0 c).after 8 t) = _
  rw [after_8]
  funext y
  obtain ⟨r, n, rfl⟩ : ∃ (r : Fin 2048) (n : Fin 256), y = ix2 r n := ⟨y 0, y 1, eq_ix2 y⟩
  rw [View.read_apply]
  show outAt m c t (ix2 r n) = G m c (((cfg0.win 8).blk t).view.emb (ix2 r n))
  have hRlt : 2048 * (t.val / 8) + r.val < 16384 := by have := r.isLt; omega
  rw [outAt_apply m c t h7 r n ⟨_, hRlt⟩ rfl]
  unfold G
  congr 1
  funext a
  apply Fin.ext
  match a with
  | ⟨0, _⟩ => show 2048 * (t.val / 8) + r.val = win0_8.index t 0 * 2048 + 1 * r.val; rw [hi.1]; omega
  | ⟨1, _⟩ => show n.val = win0_8.index t 1 * 256 + 1 * n.val; rw [hi.2]; omega

theorem xsize8 : ∀ t : Fin cfg0.N, win0_8.xsize (grid0.coords t) 0 = 2048 ∧ win0_8.xsize (grid0.coords t) 1 = 256 :=
  (by decide +kernel : ∀ t : Fin grid0.N, win0_8.xsize (grid0.coords t) 0 = 2048 ∧ win0_8.xsize (grid0.coords t) 1 = 256)

/-- The eight written-back row tiles cover the result array. -/
theorem final (c : Dev nD) : (dats m 0 c).arrAt 8 cfg0.N = G m c :=
  (dats m 0 c).arrAt_eq_of_cover 8 (G m c) (flushed_eq m c) fun i => by
    have h0 : (i 0 : ℕ) < 16384 := (i 0).isLt
    have h1 : (i 1 : ℕ) < 256 := (i 1).isLt
    have hlt : 8 * ((i 0 : ℕ) / 2048) + 7 < cfg0.N := by rw [show cfg0.N = 64 from N_0]; omega
    refine ⟨⟨8 * ((i 0 : ℕ) / 2048) + 7, hlt⟩, (flush0_8 _).mpr (by show (8 * ((i 0 : ℕ) / 2048) + 7) % 8 = 7; omega), ?_⟩
    show i ∈ ((View.whole main_v4).slice (win0_8.rect ⟨8 * ((i 0 : ℕ) / 2048) + 7, hlt⟩)).set
    rw [View.set_slice_whole, Rect.mem_set_unit]
    have hi := idx8 ⟨8 * ((i 0 : ℕ) / 2048) + 7, hlt⟩
    have hx := xsize8 ⟨8 * ((i 0 : ℕ) / 2048) + 7, hlt⟩
    intro a
    match a with
    | ⟨0, _⟩ =>
      show win0_8.index ⟨8 * ((i 0 : ℕ) / 2048) + 7, hlt⟩ 0 * 2048 ≤ (i 0 : ℕ)
        ∧ (i 0 : ℕ) < win0_8.index ⟨8 * ((i 0 : ℕ) / 2048) + 7, hlt⟩ 0 * 2048 + win0_8.xsize (grid0.coords ⟨8 * ((i 0 : ℕ) / 2048) + 7, hlt⟩) 0
      rw [hi.1, hx.1]
      show (8 * ((i 0 : ℕ) / 2048) + 7) / 8 * 2048 ≤ (i 0 : ℕ) ∧ (i 0 : ℕ) < (8 * ((i 0 : ℕ) / 2048) + 7) / 8 * 2048 + 2048
      omega
    | ⟨1, _⟩ =>
      show win0_8.index ⟨8 * ((i 0 : ℕ) / 2048) + 7, hlt⟩ 1 * 256 ≤ (i 1 : ℕ)
        ∧ (i 1 : ℕ) < win0_8.index ⟨8 * ((i 0 : ℕ) / 2048) + 7, hlt⟩ 1 * 256 + win0_8.xsize (grid0.coords ⟨8 * ((i 0 : ℕ) / 2048) + 7, hlt⟩) 1
      rw [hi.2, hx.2]
      omega

/-! ## The run -/

/-- Every weakly fair execution of the idealized kernel ends with the result array at `G` and the arguments unchanged. -/
theorem run : θ_run defs (onTc (τ := τ) (main (F := Ideal))) ⟨m, fun _ => 0, ρ⟩ (fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 8).trans (final m c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 3).trans (((dats m 0 c).arrAt_in 3 rfl _).trans ((A_eq m c 3).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Fused
end
-- ==== Proof.ReferenceIdealFused.lean ====
/-
  The reference computes the same fused map.

  Its three matrix products are plain sums over the contracted coordinate at the ideal values, its biases are
  broadcast rows, and its concatenation [lifted | x_fine] along the columns reads the left piece at columns below 64
  and the right piece, shifted by 64, from there on. Contracting the 320 concatenated columns against W_fuse and
  splitting that sum at column 64 gives the kernel's two products added: the only law used is the regrouping of a
  finite sum.
-/
import proofs.«163065_g84232898609311_cont_9to1c4b_835_18_alg».proof.Proof.Gen.ReferenceIdeal.Read
import proofs.«163065_g84232898609311_cont_9to1c4b_835_18_alg».proof.Proof.MeshUnpoolSpec
import Idealize.ShloMosaic.Lib.Pipeline.Value
import Idealize.ShloMosaic.Lib.ValueIdx

noncomputable section

namespace Cert.ReferenceIdeal.Fused

open Idealize.ShloMosaic Idealize.ShloMosaic.ValueIdx
open Cert.ReferenceIdeal Cert.ReferenceIdeal.Gen Cert.ReferenceIdeal.Read Cert.MeshUnpool

/-- The projection of the coarse features, as the reference computes it. -/
theorem proj_eq (x0 : (⟨S4096x256, .f32⟩ : BufTy).Contents (Elt Ideal)) (x1 : (⟨S16384x256, .f32⟩ : BufTy).Contents (Elt Ideal)) (x2 : (⟨S16384x4096, .f32⟩ : BufTy).Contents (Elt Ideal)) (x3 : (⟨S256x64, .f32⟩ : BufTy).Contents (Elt Ideal)) (x4 : (⟨S64, .f32⟩ : BufTy).Contents (Elt Ideal)) (x5 : (⟨S320x256, .f32⟩ : BufTy).Contents (Elt Ideal)) (x6 : (⟨S256, .f32⟩ : BufTy).Contents (Elt Ideal)) (κ : Fin 4096) (j : Fin 64) :
    val_main_v3 (F := Ideal) x0 x3 x4 (ix2 κ j) = proj x0 x3 x4 κ j := by
  rw [val_main_v3_apply, val_main_v0_apply, val_main_v2_apply, val_main_v1_apply]
  unfold proj
  show (_ : EReal) + _ = _
  refine congrArg₂ (· + ·) (Finset.sum_congr rfl fun k _ => congrArg₂ (· * ·) (congrArg x0 ?_) (congrArg x3 ?_)) (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The interpolation to the fine mesh, as the reference computes it. -/
theorem lifted_eq (x0 : (⟨S4096x256, .f32⟩ : BufTy).Contents (Elt Ideal)) (x1 : (⟨S16384x256, .f32⟩ : BufTy).Contents (Elt Ideal)) (x2 : (⟨S16384x4096, .f32⟩ : BufTy).Contents (Elt Ideal)) (x3 : (⟨S256x64, .f32⟩ : BufTy).Contents (Elt Ideal)) (x4 : (⟨S64, .f32⟩ : BufTy).Contents (Elt Ideal)) (x5 : (⟨S320x256, .f32⟩ : BufTy).Contents (Elt Ideal)) (x6 : (⟨S256, .f32⟩ : BufTy).Contents (Elt Ideal)) (R : Fin 16384) (j : Fin 64) :
    val_main_v4 (F := Ideal) x0 x2 x3 x4 (ix2 R j) = lifted x0 x2 x3 x4 R j := by
  rw [val_main_v4_apply]
  unfold lifted
  refine Finset.sum_congr rfl fun κ _ => ?_
  rw [show ridx_main_v4 (ix2 R j) κ = ix2 κ j from funext fun a => Fin.ext (by match a with | ⟨0, _⟩ => rfl | ⟨1, _⟩ => rfl),
    show lidx_main_v4 (ix2 R j) κ = ix2 R κ from funext fun a => Fin.ext (by match a with | ⟨0, _⟩ => rfl | ⟨1, _⟩ => rfl), proj_eq x0 x1 x2 x3 x4 x5 x6]

/-- The concatenation at a column below 64 reads the interpolated features; -/
theorem cat_lo (x0 : (⟨S4096x256, .f32⟩ : BufTy).Contents (Elt Ideal)) (x1 : (⟨S16384x256, .f32⟩ : BufTy).Contents (Elt Ideal)) (x2 : (⟨S16384x4096, .f32⟩ : BufTy).Contents (Elt Ideal)) (x3 : (⟨S256x64, .f32⟩ : BufTy).Contents (Elt Ideal)) (x4 : (⟨S64, .f32⟩ : BufTy).Contents (Elt Ideal)) (x5 : (⟨S320x256, .f32⟩ : BufTy).Contents (Elt Ideal)) (x6 : (⟨S256, .f32⟩ : BufTy).Contents (Elt Ideal)) (R : Fin 16384) (q : Fin 64) :
    val_main_v5 (F := Ideal) x0 x1 x2 x3 x4 (ix2 R (lo q)) = lifted x0 x2 x3 x4 R q := by
  unfold val_main_v5
  rw [concatenate_pair_apply_left (t := S16384x320) (s₁ := S16384x64) (s₂ := S16384x256) (1 : Fin 2) _ _ _ (ix2 R (lo q)) rfl (ix2 R q)
    (fun b => by match b with | ⟨0, _⟩ => rfl | ⟨1, _⟩ => rfl)]
  exact lifted_eq x0 x1 x2 x3 x4 x5 x6 R q

/-- at column 64 + q it reads the fine features' column q. -/
theorem cat_hi (x0 : (⟨S4096x256, .f32⟩ : BufTy).Contents (Elt Ideal)) (x1 : (⟨S16384x256, .f32⟩ : BufTy).Contents (Elt Ideal)) (x2 : (⟨S16384x4096, .f32⟩ : BufTy).Contents (Elt Ideal)) (x3 : (⟨S256x64, .f32⟩ : BufTy).Contents (Elt Ideal)) (x4 : (⟨S64, .f32⟩ : BufTy).Contents (Elt Ideal)) (x5 : (⟨S320x256, .f32⟩ : BufTy).Contents (Elt Ideal)) (x6 : (⟨S256, .f32⟩ : BufTy).Contents (Elt Ideal)) (R : Fin 16384) (q : Fin 256) :
    val_main_v5 (F := Ideal) x0 x1 x2 x3 x4 (ix2 R (hi q)) = x1 (ix2 R q) := by
  unfold val_main_v5
  exact concatenate_pair_apply_right (t := S16384x320) (s₁ := S16384x64) (s₂ := S16384x256) (1 : Fin 2) _ _ _ (ix2 R (hi q)) rfl rfl (ix2 R q)
    (fun b hb => by
      match b with
      | ⟨0, _⟩ => rfl
      | ⟨1, _⟩ => exact absurd rfl hb)
    (by show q.val + 64 = 64 + q.val; omega)

/-- The reference's result is the fused map of its arguments. -/
theorem result_eq (x0 : (⟨S4096x256, .f32⟩ : BufTy).Contents (Elt Ideal)) (x1 : (⟨S16384x256, .f32⟩ : BufTy).Contents (Elt Ideal)) (x2 : (⟨S16384x4096, .f32⟩ : BufTy).Contents (Elt Ideal)) (x3 : (⟨S256x64, .f32⟩ : BufTy).Contents (Elt Ideal)) (x4 : (⟨S64, .f32⟩ : BufTy).Contents (Elt Ideal)) (x5 : (⟨S320x256, .f32⟩ : BufTy).Contents (Elt Ideal)) (x6 : (⟨S256, .f32⟩ : BufTy).Contents (Elt Ideal)) :
    val_main_v9 (F := Ideal) x0 x1 x2 x3 x4 x5 x6 = fused x0 x1 x2 x3 x4 x5 x6 := by
  funext i
  obtain ⟨R, n, rfl⟩ : ∃ (R : Fin 16384) (n : Fin 256), i = ix2 R n := ⟨i 0, i 1, eq_ix2 i⟩
  rw [val_main_v9_apply, val_main_v6_apply, val_main_v8_apply, val_main_v7_apply, sum_split]
  unfold fused
  show ((_ : EReal) + _) + _ = _
  refine congrArg₂ (· + ·) (congrArg₂ (· + ·) (Finset.sum_congr rfl fun q _ => ?_) (Finset.sum_congr rfl fun q _ => ?_)) (congrArg x6 ?_)
  · rw [show lidx_main_v6 (ix2 R n) (lo q) = ix2 R (lo q) from funext fun a => Fin.ext (by match a with | ⟨0, _⟩ => rfl | ⟨1, _⟩ => rfl),
      show ridx_main_v6 (ix2 R n) (lo q) = ix2 (lo q) n from funext fun a => Fin.ext (by match a with | ⟨0, _⟩ => rfl | ⟨1, _⟩ => rfl), cat_lo x0 x1 x2 x3 x4 x5 x6]
  · rw [show lidx_main_v6 (ix2 R n) (hi q) = ix2 R (hi q) from funext fun a => Fin.ext (by match a with | ⟨0, _⟩ => rfl | ⟨1, _⟩ => rfl),
      show ridx_main_v6 (ix2 R n) (hi q) = ix2 (hi q) n from funext fun a => Fin.ext (by match a with | ⟨0, _⟩ => rfl | ⟨1, _⟩ => rfl), cat_hi x0 x1 x2 x3 x4 x5 x6]
  · exact funext fun a => Fin.ext (by match a with | ⟨0, _⟩ => rfl)

end Cert.ReferenceIdeal.Fused
end
-- ==== Proof.lean ====
/-
  The certificate of the fused mesh-unpool kernel against its jnp reference.

  Both programs compute, from x_coarse [4096, 256], x_fine [16384, 256], interp [16384, 4096], W_sym [256, 64],
  b_sym [64], W_fuse [320, 256], b_fuse [256], the array

    out (R, n) = sum_{q < 64} lifted (R, q) * W_fuse (q, n) + sum_{q < 256} x_fine (R, q) * W_fuse (64 + q, n) + b_fuse (n),
    lifted (R, j) = sum_kappa interp (R, kappa) * (sum_k x_coarse (kappa, k) * W_sym (k, j) + b_sym (j)).

  The kernel walks a grid of 8 row tiles by 8 contraction chunks, keeps the projected coarse features and a running
  accumulator in two scratch blocks, and stores an output block at each row tile's last chunk; the reference
  concatenates [lifted | x_fine] and contracts all 320 columns at once. At the ideal values the two differ only by how
  finite sums are grouped (tile by tile; split at column 64), so they agree on every extended real input, and the
  finiteness precondition is not needed for the equality.

  The three frames: the kernel's, at the word level and at the ideal values, by its four-case body run under an
  invariant that carries the two scratch blocks from point to point (Proof/KernelSteps, Proof/KernelCarried and their
  idealized twins); the reference's by its generated run. The idealization rewrote nothing, so `preserves` is trivial.
-/
import proofs.«163065_g84232898609311_cont_9to1c4b_835_18_alg».proof.Defs
import proofs.«163065_g84232898609311_cont_9to1c4b_835_18_alg».proof.Proof.Gen.Kernel
import proofs.«163065_g84232898609311_cont_9to1c4b_835_18_alg».proof.Proof.Gen.KernelIdeal
import proofs.«163065_g84232898609311_cont_9to1c4b_835_18_alg».proof.Proof.Gen.ReferenceIdeal
import proofs.«163065_g84232898609311_cont_9to1c4b_835_18_alg».proof.Proof.Gen.Pre_finite_inputs
import proofs.«163065_g84232898609311_cont_9to1c4b_835_18_alg».proof.Proof.Gen.ReferenceIdeal.Run
import proofs.«163065_g84232898609311_cont_9to1c4b_835_18_alg».proof.Proof.Gen.ReferenceIdeal.Read
import proofs.«163065_g84232898609311_cont_9to1c4b_835_18_alg».proof.Proof.KernelCarried
import proofs.«163065_g84232898609311_cont_9to1c4b_835_18_alg».proof.Proof.KernelIdealCarried
import proofs.«163065_g84232898609311_cont_9to1c4b_835_18_alg».proof.Proof.KernelIdealFused
import proofs.«163065_g84232898609311_cont_9to1c4b_835_18_alg».proof.Proof.ReferenceIdealFused
import Idealize.ShloMosaic.Adequacy
import Idealize.ShloMosaic.Init

noncomputable section

namespace Cert.Proof

open Idealize.ShloMosaic Idealize.SL.Sem

theorem frame_kernel : Cert.frame_Kernel := fun m ρ _ => Cert.Kernel.Carried.frame m ρ

theorem frame_kernelIdeal : Cert.frame_KernelIdeal := fun m ρ _ => Cert.KernelIdeal.Carried.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the fused map of the (agreeing) arguments in the result array. -/
theorem algebraic : Cert.algebraic_KernelIdeal_ReferenceIdeal := by
  intro m ρ m' ρ' _ hagree
  refine ⟨fun c => Cert.KernelIdeal.Fused.G m c, Cert.KernelIdeal.Fused.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Fused.result_eq]
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
